-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S128x32 .f32) (main_arg10 : FVec F S32 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩
abbrev S1x32 : Shape := ⟨2, ![1, 32]⟩
abbrev S100000x32 : Shape := ⟨2, ![100000, 32]⟩
abbrev S4000x32 : Shape := ⟨2, ![4000, 32]⟩
abbrev S4000 : Shape := ⟨1, ![4000]⟩
abbrev S4000x1 : Shape := ⟨2, ![4000, 1]⟩

abbrev nBuf : Space → Nat
  | .hbm => 117
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S200000x128, .f32⟩
  | .hbm, ⟨22, _⟩ => ⟨S800000x1, .i32⟩
  | .hbm, ⟨23, _⟩ => ⟨S200000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S200000, .f32⟩
  | .hbm, ⟨28, _⟩ => ⟨S800000x1, .i32⟩
  | .hbm, ⟨29, _⟩ => ⟨S200000, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S200000x1, .f32⟩
  | .hbm, ⟨34, _⟩ => ⟨S200000x128, .f32⟩
  | .hbm, ⟨35, _⟩ => ⟨S200000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S100000x128, .f32⟩
  | .hbm, ⟨47, _⟩ => ⟨S800000x1, .i32⟩
  | .hbm, ⟨48, _⟩ => ⟨S100000x128, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S100000, .f32⟩
  | .hbm, ⟨53, _⟩ => ⟨S800000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S200000x128, .f32⟩
  | .hbm, ⟨74, _⟩ => ⟨S800000x1, .i32⟩
  | .hbm, ⟨75, _⟩ => ⟨S200000x128, .f32⟩
  | .hbm, ⟨76, _⟩ => ⟨S_, .f32⟩
  | .hbm, ⟨77, _⟩ => ⟨S800000, .f32⟩
  | .hbm, ⟨78, _⟩ => ⟨S_, .f32⟩
  | .hbm, ⟨79, _⟩ => ⟨S200000, .f32⟩
  | .hbm, ⟨80, _⟩ => ⟨S800000x1, .i32⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .hbm, ⟨85, _⟩ => ⟨S200000x1, .f32⟩
  | .hbm, ⟨86, _⟩ => ⟨S200000x128, .f32⟩
  | .hbm, ⟨87, _⟩ => ⟨S200000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S100000x128, .f32⟩
  | .hbm, ⟨99, _⟩ => ⟨S800000x1, .i32⟩
  | .hbm, ⟨100, _⟩ => ⟨S100000x128, .f32⟩
  | .hbm, ⟨101, _⟩ => ⟨S_, .f32⟩
  | .hbm, ⟨102, _⟩ => ⟨S800000, .f32⟩
  | .hbm, ⟨103, _⟩ => ⟨S_, .f32⟩
  | .hbm, ⟨104, _⟩ => ⟨S100000, .f32⟩
  | .hbm, ⟨105, _⟩ => ⟨S800000x1, .i32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S1x128, .f32⟩
  | .hbm, ⟨115, _⟩ => ⟨S1x32, .f32⟩
  | .hbm, ⟨116, _⟩ => ⟨S100000x32, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x32, .f32⟩
  | .local _ .vmem, ⟨13, _⟩ => ⟨S1x32, .f32⟩
  | .local _ .vmem, ⟨14, _⟩ => ⟨S4000x32, .f32⟩
  | .local _ .vmem, ⟨15, _⟩ => ⟨S4000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_16 : Ref sig .tc := ⟨.hbm, 88, rfl⟩
abbrev main_v59 : Ref sig .tc := ⟨.hbm, 89, rfl⟩
abbrev main_v60 : Ref sig .tc := ⟨.hbm, 90, rfl⟩
abbrev main_c_17 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_18 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_19 : Ref sig .tc := ⟨.hbm, 101, rfl⟩
abbrev main_v69 : Ref sig .tc := ⟨.hbm, 102, rfl⟩
abbrev main_cst_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_21 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  reduces_S4000x32_S4000 : S4000x32.Reduces [1] S4000
  shapeCasts_S4000_S4000x1 : S4000.ShapeCasts S4000x1
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  dot_S4000x128_S128x32_S4000x32_1_0_0_1_n_n_wf : DotDims.WF S4000x128 S128x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x32.size a ≤ S100000x32.size a
  hwx1_7 : ∀ i : grid1.Coords, EltTy.bits .f32 = 32 ∨ (Rect.block (s := S100000x32) S4000x32.size (cc1_transform_7 i) (hinb1_7 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v77) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v79) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v80) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v81) S4000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S200000x128, .f32⟩
  | 22 => ⟨S800000x1, .i32⟩
  | 23 => ⟨S200000x128, .f32⟩
  | 24 => ⟨S_, .f32⟩
  | 25 => ⟨S800000, .f32⟩
  | 26 => ⟨S_, .f32⟩
  | 27 => ⟨S200000, .f32⟩
  | 28 => ⟨S800000x1, .i32⟩
  | 29 => ⟨S200000, .f32⟩
  | 30 => ⟨S_, .f32⟩
  | 31 => ⟨S200000, .f32⟩
  | 32 => ⟨S200000, .f32⟩
  | 33 => ⟨S200000x1, .f32⟩
  | 34 => ⟨S200000x128, .f32⟩
  | 35 => ⟨S200000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S200000x128, .f32⟩
  | 79 => ⟨S800000x1, .i32⟩
  | 80 => ⟨S200000x128, .f32⟩
  | 81 => ⟨S_, .f32⟩
  | 82 => ⟨S800000, .f32⟩
  | 83 => ⟨S_, .f32⟩
  | 84 => ⟨S200000, .f32⟩
  | 85 => ⟨S800000x1, .i32⟩
  | 86 => ⟨S200000, .f32⟩
  | 87 => ⟨S_, .f32⟩
  | 88 => ⟨S200000, .f32⟩
  | 89 => ⟨S200000, .f32⟩
  | 90 => ⟨S200000x1, .f32⟩
  | 91 => ⟨S200000x128, .f32⟩
  | 92 => ⟨S200000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S_, .f32⟩
  | 103 => ⟨S100000x128, .f32⟩
  | 104 => ⟨S800000x1, .i32⟩
  | 105 => ⟨S100000x128, .f32⟩
  | 106 => ⟨S_, .f32⟩
  | 107 => ⟨S800000, .f32⟩
  | 108 => ⟨S_, .f32⟩
  | 109 => ⟨S100000, .f32⟩
  | 110 => ⟨S800000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S100000x32, .f32⟩
  | 5 => ⟨S1x32, .f32⟩
  | 6 => ⟨S100000x32, .f32⟩
  | 7 => ⟨S100000x32, .f32⟩
  | 8 => ⟨S_, .f32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x32, .f32⟩
  | 15 => ⟨S100000x32, .f32⟩
  | 16 => ⟨S100000x32, .f32⟩
  | 17 => ⟨S_, .f32⟩
  | 18 => ⟨S100000, .f32⟩
  | 19 => ⟨S100000x1, .f32⟩
  | 20 => ⟨S100000x32, .f32⟩
  | 21 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_v62 : Ref sig .tc := ⟨.hbm, 94, rfl⟩
abbrev main_v63 : Ref sig .tc := ⟨.hbm, 95, rfl⟩
abbrev main_c_17 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_18 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_cst_20 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_21 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call1_cst : Ref sig .tc := ⟨.hbm, 122, rfl⟩
abbrev main_call1_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call2_cst : Ref sig .tc := ⟨.hbm, 129, rfl⟩
abbrev main_call2_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_24 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000x1_S100000x32_0_1 : S100000x1.BroadcastsInDim S100000x32 (![0, 1] : Fin 2 → Fin S100000x32.rank)
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  scatter_S200000_S800000x1_S800000_n_0_0_1_wf : ScatterDims.WF S200000 S800000x1 S800000 [] [0] [0] 1
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KernelRun.lean ====
/-
  The idealized kernel program's run with its result named.

  The program is four stretches: host operations, the first kernel region, host operations, the second kernel region.
  The buffer contents at each boundary are a fold from the launch memory; the run below ends with the result buffer
  holding what the last boundary's contents give it, and with every argument as launched.
-/
import proofs.«145335_j50972671869731_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, with the result buffer at the last boundary's
    contents and the eleven arguments unchanged. -/
theorem run_named : θ_run defs (onTc (τ := τ) (main (F := F))) ⟨m, fun _ => 0, ρ⟩ (fun r => ∀ c : Dev nD,
      r.2.mem ((c.tc : Thread nD τ).loc main_v81) = W4 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v81 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.LibHostSoftmax.lean ====
/-
  A row softmax on the extended reals, and the host operations that compute it over a stack of matrices, read at an index.

  For a row T of n extended reals the row maximum is the running maximum from −∞, and the softmax entry at q is
  exp (T q − max) divided by the sum over the row of those exponentials.

  Layouts: a scalar spread over any shape; a [G, a] array given a trailing unit axis and spread over b columns reads
  (g, p) at (g, p, q); an [a, b] matrix given a leading unit axis and spread over G members reads (p, q) at (g, p, q).
  Reductions along the last axis of a [G, a, b] stack at (g, p): the maximum is the running maximum of the row from the
  initial value, the sum is the initial value plus the row's sum. And the row softmax of a stack assembled from these:
  the host takes the row maximum from −∞ (and once more against −∞), spreads it, subtracts, exponentiates, sums the row
  from 0, spreads the sum and divides; at (g, p, q) that is the softmax of row (g, p) at q.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Attn

open Idealize.ShloMosaic

/-- The pattern of −∞ denotes the bottom element. -/
theorem ofBits_negInf : Ideal.ofBits .f32 0xFF800000#32 = (⊥ : EReal) := by
  simp [Ideal.ofBits, Ideal.ieee]

/-- Taking the maximum with −∞ changes nothing. -/
theorem max_negInf (y : EReal) : max (Ideal.ofBits .f32 0xFF800000#32) y = y := by
  rw [ofBits_negInf]; exact max_eq_right bot_le

/-- The running maximum of a row from −∞. -/
def rowMax {n : ℕ} (T : Fin n → EReal) : EReal :=
  (Finset.univ : Finset (Fin n)).fold max (Ideal.ofBits .f32 0xFF800000#32) T

/-- The softmax of a row, at q. -/
def sm {n : ℕ} (T : Fin n → EReal) (q : Fin n) : EReal :=
  Ideal.div (Ideal.exp (T q - rowMax T)) (∑ q' : Fin n, Ideal.exp (T q' - rowMax T))

end Cert.Attn

namespace Cert.HSoft

open Idealize.ShloMosaic Idealize.ShloMosaic.ValueIdx

/-- A coordinate is 0 when its axis has extent 1. -/
theorem val_ite {n : ℕ} (i : Fin n) : i.val = if n = 1 then 0 else i.val := by
  split
  · have := i.isLt; omega
  · rfl

variable {α : Type}

/-- A scalar spread over a shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A [G, a] array given a trailing unit axis and spread over b columns reads, at (g, p, q), the entry (g, p). -/
theorem bcast_col_apply {G a b : ℕ} (v : (⟨2, ![G, a]⟩ : Shape).Idx → α)
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![G, a, 1]⟩ ![0, 1] h1 v) (ix3 g p q) = v (ix2 g p) :=
  (broadcastInDim_apply _ h2 _ (ix3 g p q) (ix3 g p (0 : Fin 1)) fun ax => by
      match ax with
      | ⟨0, _⟩ => exact val_ite g
      | ⟨1, _⟩ => exact val_ite p
      | ⟨2, _⟩ => rfl).trans
    (broadcastInDim_apply _ h1 _ (ix3 g p (0 : Fin 1)) (ix2 g p) fun ax => by
      match ax with
      | ⟨0, _⟩ => exact val_ite g
      | ⟨1, _⟩ => exact val_ite p)

/-- An [a, b] matrix given a leading unit axis and spread over G members reads, at (g, p, q), the entry (p, q). -/
theorem bcast_mat_apply {G a b : ℕ} (v : (⟨2, ![a, b]⟩ : Shape).Idx → α)
    (h1 : (⟨2, ![a, b]⟩ : Shape).BroadcastsInDim ⟨3, ![1, a, b]⟩ (![1, 2] : Fin 2 → Fin 3))
    (h2 : (⟨3, ![1, a, b]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![1, a, b]⟩ ![1, 2] h1 v) (ix3 g p q) = v (ix2 p q) :=
  (broadcastInDim_apply _ h2 _ (ix3 g p q) (ix3 (0 : Fin 1) p q) fun ax => by
      match ax with
      | ⟨0, _⟩ => rfl
      | ⟨1, _⟩ => exact val_ite p
      | ⟨2, _⟩ => exact val_ite q).trans
    (broadcastInDim_apply _ h1 _ (ix3 (0 : Fin 1) p q) (ix2 p q) fun ax => by
      match ax with
      | ⟨0, _⟩ => exact val_ite p
      | ⟨1, _⟩ => exact val_ite q)

/-- The index (g, p) of the reduced stack with the last coordinate put back. -/
theorem lift_last {G a b : ℕ} (h : (⟨3, ![G, a, b]⟩ : Shape).Reduces [2] ⟨2, ![G, a]⟩) (g : Fin G) (p : Fin a)
    (k : Fin ((⟨3, ![G, a, b]⟩ : Shape).size 2)) : h.lift (ix2 g p) k = ix3 g p (⟨k.val, k.isLt⟩ : Fin b) := by
  funext ax; apply Fin.ext
  match ax with
  | ⟨0, _⟩ => rfl
  | ⟨1, _⟩ => rfl
  | ⟨2, _⟩ => rfl

/-- The host's maximum along the last axis of a stack, at (g, p): the running maximum of the row from the initial value. -/
theorem reduce_max_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduce FloatOps.maximumf A init h' hu (ix2 g p)
      = (Finset.univ : Finset (Fin b)).fold max (init ix0) (fun q => A (ix3 g p q)) := by
  rw [Host.reduce_eq_fold_single FloatOps.maximumf A init h' h hu]
  have hf : (A ∘ h.lift (ix2 g p)) = fun q : Fin b => A (ix3 g p q) := funext fun k => congrArg A (lift_last h g p k)
  have hi : init (Shape.Idx.first hu) = init ix0 := congrArg init (funext fun ax => ax.elim0)
  rw [hi]
  exact congrArg (fun f => Finset.fold max (init ix0) f (Finset.univ : Finset (Fin b))) hf

/-- The host's sum along the last axis of a stack, at (g, p): the initial value plus the row's sum. -/
theorem reduce_add_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduceAdd A init h' hu (ix2 g p) = init ix0 + ∑ q : Fin b, A (ix3 g p q) := by
  show Ideal.hostReduceAdd h' A (init (Shape.Idx.first hu)) (ix2 g p) = _
  rw [Ideal.hostReduceAdd_single h' h]
  have hi : init (Shape.Idx.first hu) = init ix0 := congrArg init (funext fun ax => ax.elim0)
  rw [hi]
  exact congrArg (init ix0 + ·) (Finset.sum_congr rfl fun k _ => congrArg A (lift_last h g p k))

/-- The host's exponential of a vector, at an index. -/
theorem hexp_apply {s : Shape} (v : FVec Ideal s .f32) (i : s.Idx) : Host.exp v i = Ideal.exp (v i) := rfl

/-- The host's quotient of two vectors, at an index. -/
theorem hdivf_apply {s : Shape} (u v : FVec Ideal s .f32) (i : s.Idx) : Host.divf u v i = Ideal.div (u i) (v i) := rfl

/-- The row softmax of a stack as the host computes it — row maximum from −∞ (and once more against −∞), spread, subtract,
    exponentiate, row sum from 0, spread, divide — at (g, p, q). -/
theorem softmax_apply {G a b : ℕ} (A : FVec Ideal ⟨3, ![G, a, b]⟩ .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel)
    (h0 : (⟨0, ![]⟩ : Shape).BroadcastsInDim ⟨2, ![G, a]⟩ (![] : Fin 0 → Fin 2))
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    Host.divf (Host.exp (subf A (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu))))))
      (broadcastInDim ⟨3, ![G, a, b]⟩ ![0, 1, 2] h2 (broadcastInDim ⟨3, ![G, a, 1]⟩ ![0, 1] h1
        (Host.reduceAdd (Host.exp (subf A (broadcastInDim ⟨3, ![G, a, b]⟩ ![0, 1, 2] h2 (broadcastInDim ⟨3, ![G, a, 1]⟩ ![0, 1] h1
          (maximumf (broadcastInDim ⟨2, ![G, a]⟩ ![] h0 (constant (F := Ideal) ⟨0, ![]⟩ .f32 0xFF800000#32))
            (Host.reduce FloatOps.maximumf A (constant (F := Ideal) ⟨0, ![]⟩ .f32 0xFF800000#32) h' hu))))))
          (constant (F := Ideal) ⟨0, ![]⟩ .f32 0x00000000#32) h' hu))) (ix3 g p q)
    = Cert.Attn.sm (fun q' => A (ix3 g p q')) q := by
  have hM : ∀ q' : Fin b, (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu)))) (ix3 g p q')
        = Cert.Attn.rowMax (fun q'' => A (ix3 g p q'')) := by
    intro q'
    rw [bcast_col_apply, maximumf_apply, bcast_scalar_apply, reduce_max_last_apply A _ h' h hu]
    exact Cert.Attn.max_negInf _
  rw [hdivf_apply, hexp_apply, subf_apply, hM, bcast_col_apply, reduce_add_last_apply _ _ h' h hu]
  unfold Cert.Attn.sm
  refine congrArg (Ideal.div _) ?_
  show Ideal.ofBits .f32 0x00000000#32 + _ = _
  rw [Ideal.ofBits_zero_f32, zero_add]
  refine Finset.sum_congr rfl fun q' _ => ?_
  rw [hexp_apply, subf_apply, hM]

end Cert.HSoft

end
-- ==== Proof.Spec.lean ====
/-
  One row of the network, on the extended reals.

  Every stage of the computation after the neighbourhood averaging acts on each node's feature row by itself:
  an affine map  x ↦ x·W + b  (entry q is Σ_l x_l · W_{l,q} + b_q), a rectification  max(·, 0),  and at the end a
  softmax over the row's 32 logits.  The functions below are those row maps; both programs are shown to compute them
  row by row, so the comparison of the two programs never looks inside a sum.
-/
import Idealize.ShloMosaic.PureOps.Ideal
import proofs.«145335_j50972671869731_1_alg».proof.Proof.LibHostSoftmax

noncomputable section

open scoped BigOperators

namespace Cert.HGap

open Idealize.ShloMosaic

/-- Entry q of x·W + b. -/
def affine {K N : ℕ} (x : Fin K → EReal) (W : Fin K → Fin N → EReal) (b : Fin N → EReal) (q : Fin N) : EReal :=
  (∑ l : Fin K, x l * W l q) + b q

/-- Entry q of max(x·W + b, 0): a dense layer followed by the rectifier (0 written as the float word it is printed as). -/
def dense {K N : ℕ} (x : Fin K → EReal) (W : Fin K → Fin N → EReal) (b : Fin N → EReal) (q : Fin N) : EReal :=
  max (affine x W b q) (Ideal.ofBits .f32 0x00000000#32)

/-- The last three layers on one row: two rectified dense layers, the affine map to the 32 logits, their softmax. -/
def tailRow (x : Fin 128 → EReal) (W2 : Fin 128 → Fin 128 → EReal) (b2 : Fin 128 → EReal)
    (Wm1 : Fin 128 → Fin 128 → EReal) (bm1 : Fin 128 → EReal) (Wm2 : Fin 128 → Fin 32 → EReal) (bm2 : Fin 32 → EReal)
    (q : Fin 32) : EReal :=
  Cert.Attn.sm (affine (dense (dense x W2 b2) Wm1 bm1) Wm2 bm2) q

end Cert.HGap

end
-- ==== Proof.Region0.lean ====
/-
  What the first kernel region leaves in its output array.

  The region walks 25 grid points; point t reads rows 4000·t … 4000·t + 3999 of the feature array, the whole weight
  matrix and the bias row, and writes the same rows of the output.  The row-by-row description of what one point
  writes (entry (p, q) of the block is the rectified dense layer of block row p) therefore glues into one function
  of the whole arrays: entry (r, q) of the output is the rectified dense layer of row r.  Everything is stated at an
  arbitrary valuation of the buffers at the region's entry.
-/
import proofs.«145335_j50972671869731_1_alg».proof.Proof.Gen.KernelIdeal.Frame
import proofs.«145335_j50972671869731_1_alg».proof.Proof.Spec
import Idealize.ShloMosaic.Lib.Pipeline.Value
import Idealize.ShloMosaic.Lib.ValueIdx

set_option maxRecDepth 16384

noncomputable section

namespace Cert.HGap.K0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The rectified dense layer applied to every row of a 100000 × 128 array. -/
def rowsDense (X : Vec Ideal S100000x128 .f32) (W : Vec Ideal S128x128 .f32) (b : Vec Ideal S1x128 .f32) :
    Vec Ideal S100000x128 .f32 :=
  fun i => Cert.HGap.dense (fun l : Fin 128 => X (ix2 (i 0 : Fin 100000) l)) (fun (l : Fin 128) (n : Fin 128) => W (ix2 l n))
    (fun n : Fin 128 => b (ix2 (0 : Fin 1) n)) (i 1 : Fin 128)

theorem rowsDense_apply (X : Vec Ideal S100000x128 .f32) (W : Vec Ideal S128x128 .f32) (b : Vec Ideal S1x128 .f32)
    (r : Fin 100000) (q : Fin 128) :
    rowsDense X W b (ix2 r q) = Cert.HGap.dense (fun l : Fin 128 => X (ix2 r l)) (fun (l : Fin 128) (n : Fin 128) => W (ix2 l n))
      (fun n : Fin 128 => b (ix2 (0 : Fin 1) n)) q := rfl

theorem hz : (![0, 0] : Fin 2 → Nat) = fun _ => 0 := funext fun a => by fin_cases a <;> rfl

/-- The printed index maps over the grid: the row-blocked windows sit at block (t, 0), the whole-array windows at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Block t of the feature window is rows 4000·t … of its array. -/
theorem iblk_x (c : Dev nD) (t : Fin cfg0.N) (x : S4000x128.Idx) (k : S100000x128.Idx)
    (hk0 : (k 0).val = t.val * 4000 + (x 0).val) (hk1 : (k 1).val = (x 1).val) :
    (iblk0 V c 0 t : Vec Ideal S4000x128 .f32) x = (V c main_v37 : Vec Ideal S100000x128 .f32) k := by
  obtain ⟨e0, e1, -⟩ := idx_facts t
  unfold iblk0
  rw [View.read_apply]
  show (V c main_v37 : Vec Ideal S100000x128 .f32) _ = _
  refine congrArg (V c main_v37 : Vec Ideal S100000x128 .f32) ?_
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The weight window's one block is its whole array. -/
theorem iblk_w (c : Dev nD) (t : Fin cfg0.N) (x : S128x128.Idx) :
    (iblk0 V c 1 t : Vec Ideal S128x128 .f32) x = (V c main_arg3 : Vec Ideal S128x128 .f32) x := by
  obtain ⟨-, -, e0, e1, -⟩ := idx_facts t
  unfold iblk0
  rw [View.read_apply]
  show (V c main_arg3 : Vec Ideal S128x128 .f32) _ = _
  refine congrArg (V c main_arg3 : Vec Ideal S128x128 .f32) ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias window's one block is its whole array. -/
theorem iblk_b (c : Dev nD) (t : Fin cfg0.N) (x : S1x128.Idx) :
    (iblk0 V c 2 t : Vec Ideal S1x128 .f32) x = (V c main_v38 : Vec Ideal S1x128 .f32) x := by
  obtain ⟨-, -, -, -, e0, e1, -⟩ := idx_facts t
  unfold iblk0
  rw [View.read_apply]
  show (V c main_v38 : Vec Ideal S1x128 .f32) _ = _
  refine congrArg (V c main_v38 : Vec Ideal S1x128 .f32) ?_
  funext a
  apply Fin.ext
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- The body's value at block entry (p, q), as a hypothesis: the rectified dense layer of block row p. -/
abbrev PayFact : Prop :=
  ∀ (x0 : Vec Ideal S4000x128 .f32) (x1 : Vec Ideal S128x128 .f32) (x2 : Vec Ideal S1x128 .f32) (p : Fin 4000) (q : Fin 128),
    k0_pay1 (F := Ideal) x0 x1 x2 (ix2 p q)
      = Cert.HGap.dense (fun l => x0 (ix2 p l)) (fun l n => x1 (ix2 l n)) (fun n => x2 (ix2 (0 : Fin 1) n)) q

/-- What point t writes back is block t of the row-wise dense layer of the arrays as the region finds them. -/
theorem flushed_eq (hpay : PayFact) (c : Dev nD) (t : Fin cfg0.N) :
    (dat0 V c).flushed 3 t = ((cfg0.win 3).blk t).view.read (Elt Ideal)
      (rowsDense (V c main_v37) (V c main_arg3) (V c main_v38)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  obtain ⟨-, -, -, -, -, -, e0, e1⟩ := idx_facts t
  funext y
  obtain ⟨p, q, rfl⟩ : ∃ (p : Fin 4000) (q : Fin 128), y = ix2 p q := ⟨y 0, y 1, eq_ix2 y⟩
  have hr : t.val * 4000 + p.val < 100000 := by
    have ht : t.val < 25 := by have h := t.isLt; have hN : cfg0.N = 25 := N_0; omega
    have := p.isLt; omega
  have hemb : ((cfg0.win 3).blk t).view.emb (ix2 p q) = ix2 (⟨t.val * 4000 + p.val, hr⟩ : Fin 100000) q := by
    funext a
    apply Fin.ext
    match a with
    | ⟨0, _⟩ => show win0_3.index t (0 : Fin 2) * 4000 + 1 * p.val = t.val * 4000 + p.val; rw [e0]; omega
    | ⟨1, _⟩ => show win0_3.index t (1 : Fin 2) * 128 + 1 * q.val = q.val; rw [e1]; omega
  show k0_pay1 (F := Ideal) (iblk0 V c 0 t) (iblk0 V c 1 t) (iblk0 V c 2 t) (ix2 p q) = rowsDense _ _ _ (((cfg0.win 3).blk t).view.emb (ix2 p q))
  rw [hemb, rowsDense_apply, hpay]
  have h0 : (fun l : Fin 128 => (iblk0 V c 0 t : Vec Ideal S4000x128 .f32) (ix2 p l))
      = fun l : Fin 128 => (V c main_v37 : Vec Ideal S100000x128 .f32) (ix2 (⟨t.val * 4000 + p.val, hr⟩ : Fin 100000) l) :=
    funext fun l => iblk_x V c t (ix2 p l) (ix2 (⟨t.val * 4000 + p.val, hr⟩ : Fin 100000) l) rfl rfl
  have h1 : (fun (l : Fin 128) (n : Fin 128) => (iblk0 V c 1 t : Vec Ideal S128x128 .f32) (ix2 l n))
      = fun (l : Fin 128) (n : Fin 128) => (V c main_arg3 : Vec Ideal S128x128 .f32) (ix2 l n) :=
    funext fun l => funext fun n => iblk_w V c t (ix2 l n)
  have h2 : (fun n : Fin 128 => (iblk0 V c 2 t : Vec Ideal S1x128 .f32) (ix2 (0 : Fin 1) n))
      = fun n : Fin 128 => (V c main_v38 : Vec Ideal S1x128 .f32) (ix2 (0 : Fin 1) n) :=
    funext fun n => iblk_b V c t (ix2 (0 : Fin 1) n)
  rw [h0, h1, h2]

/-- An index of the output array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v39).slice (win0_3.rect t)).set ↔ _
  rw [View.set_slice_whole, Rect.mem_set_unit]
  exact Iff.rfl

/-- Every row lies in the block of the point numbered by the row divided by 4000. -/
theorem cover (i : S100000x128.Idx) : ∃ t : Fin cfg0.N, (cfg0.win 3).flush t = true ∧ i ∈ ((cfg0.win 3).blk t).view.set := by
  have hi0 : (i 0).val < 100000 := idx2_lt0 i
  have hi1 : (i 1).val < 128 := (i 1).isLt
  have hN : cfg0.N = 25 := N_0
  refine ⟨⟨(i 0).val / 4000, by rw [hN]; omega⟩, flush0_3 _, ?_⟩
  rw [mem_blk]
  obtain ⟨-, -, -, -, -, -, e0, e1⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e1]; omega

/-- The output array after the region: the rectified dense layer of every row of the feature array it found. -/
theorem final (hpay : PayFact) (c : Dev nD) :
    (dat0 V c).arrAt 3 cfg0.N = rowsDense (V c main_v37) (V c main_arg3) (V c main_v38) :=
  (dat0 V c).arrAt_eq_of_cover 3 _ (fun t _ => flushed_eq V hpay c t) cover

end Cert.HGap.K0

end
-- ==== Proof.Region1.lean ====
/-
  What the second kernel region leaves in its output array.

  As in the first region, point t of the 25 reads rows 4000·t … 4000·t + 3999 of the feature array and all of the six
  parameter arrays, and writes the same rows of the 100000 × 32 output.  One point's block, entry (p, q), is the last
  three layers and the softmax of block row p; glued over the points, entry (r, q) of the output is that row map of
  row r.  Stated at an arbitrary valuation of the buffers at the region's entry.
-/
import proofs.«145335_j50972671869731_1_alg».proof.Proof.Gen.KernelIdeal.Frame
import proofs.«145335_j50972671869731_1_alg».proof.Proof.Spec
import Idealize.ShloMosaic.Lib.Pipeline.Value
import Idealize.ShloMosaic.Lib.ValueIdx

set_option maxRecDepth 16384

noncomputable section

namespace Cert.HGap.K1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The last three layers and the softmax applied to every row of a 100000 × 128 array. -/
def rowsTail (X : Vec Ideal S100000x128 .f32) (W2 : Vec Ideal S128x128 .f32) (b2 : Vec Ideal S1x128 .f32)
    (Wm1 : Vec Ideal S128x128 .f32) (bm1 : Vec Ideal S1x128 .f32) (Wm2 : Vec Ideal S128x32 .f32) (bm2 : Vec Ideal S1x32 .f32) :
    Vec Ideal S100000x32 .f32 :=
  fun i => Cert.HGap.tailRow (fun l : Fin 128 => X (ix2 (i 0 : Fin 100000) l))
    (fun (l : Fin 128) (n : Fin 128) => W2 (ix2 l n)) (fun n : Fin 128 => b2 (ix2 (0 : Fin 1) n))
    (fun (l : Fin 128) (n : Fin 128) => Wm1 (ix2 l n)) (fun n : Fin 128 => bm1 (ix2 (0 : Fin 1) n))
    (fun (l : Fin 128) (n : Fin 32) => Wm2 (ix2 l n)) (fun n : Fin 32 => bm2 (ix2 (0 : Fin 1) n)) (i 1 : Fin 32)

theorem rowsTail_apply (X : Vec Ideal S100000x128 .f32) (W2 : Vec Ideal S128x128 .f32) (b2 : Vec Ideal S1x128 .f32)
    (Wm1 : Vec Ideal S128x128 .f32) (bm1 : Vec Ideal S1x128 .f32) (Wm2 : Vec Ideal S128x32 .f32) (bm2 : Vec Ideal S1x32 .f32)
    (r : Fin 100000) (q : Fin 32) :
    rowsTail X W2 b2 Wm1 bm1 Wm2 bm2 (ix2 r q) = Cert.HGap.tailRow (fun l : Fin 128 => X (ix2 r l))
      (fun (l : Fin 128) (n : Fin 128) => W2 (ix2 l n)) (fun n : Fin 128 => b2 (ix2 (0 : Fin 1) n))
      (fun (l : Fin 128) (n : Fin 128) => Wm1 (ix2 l n)) (fun n : Fin 128 => bm1 (ix2 (0 : Fin 1) n))
      (fun (l : Fin 128) (n : Fin 32) => Wm2 (ix2 l n)) (fun n : Fin 32 => bm2 (ix2 (0 : Fin 1) n)) q := rfl

theorem hz : (![0, 0] : Fin 2 → Nat) = fun _ => 0 := funext fun a => by fin_cases a <;> rfl

/-- Where each window's block sits at a point: (block row, block column). -/
structure IdxFacts (t : Fin cfg1.N) : Prop where
  w0 : win1_0.index t (0 : Fin 2) = t.val ∧ win1_0.index t (1 : Fin 2) = 0
  w1 : win1_1.index t (0 : Fin 2) = 0 ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 2) = t.val ∧ win1_7.index t (1 : Fin 2) = 0

/-- The printed index maps over the grid: the row-blocked windows sit at block (t, 0), the whole-array windows at (0, 0). -/
theorem idx_facts : ∀ t : Fin cfg1.N, IdxFacts t := by
  have h : ∀ t : Fin grid1.N,
      (win1_0.index t (0 : Fin 2) = t.val ∧ win1_0.index t (1 : Fin 2) = 0)
      ∧ (win1_1.index t (0 : Fin 2) = 0 ∧ win1_1.index t (1 : Fin 2) = 0)
      ∧ (win1_2.index t (0 : Fin 2) = 0 ∧ win1_2.index t (1 : Fin 2) = 0)
      ∧ (win1_3.index t (0 : Fin 2) = 0 ∧ win1_3.index t (1 : Fin 2) = 0)
      ∧ (win1_4.index t (0 : Fin 2) = 0 ∧ win1_4.index t (1 : Fin 2) = 0)
      ∧ (win1_5.index t (0 : Fin 2) = 0 ∧ win1_5.index t (1 : Fin 2) = 0)
      ∧ (win1_6.index t (0 : Fin 2) = 0 ∧ win1_6.index t (1 : Fin 2) = 0)
      ∧ (win1_7.index t (0 : Fin 2) = t.val ∧ win1_7.index t (1 : Fin 2) = 0) := by decide +kernel
  intro t
  obtain ⟨a0, a1, a2, a3, a4, a5, a6, a7⟩ := h t
  exact ⟨a0, a1, a2, a3, a4, a5, a6, a7⟩

variable (V : (c : Dev nD) → (b : Ref sig .tc) → Buf (Elt Ideal) ((c : Thread nD τ).loc b))

/-- Block t of the feature window is rows 4000·t … of its array. -/
theorem iblk_x (c : Dev nD) (t : Fin cfg1.N) (x : S4000x128.Idx) (k : S100000x128.Idx)
    (hk0 : (k 0).val = t.val * 4000 + (x 0).val) (hk1 : (k 1).val = (x 1).val) :
    (iblk1 V c 0 t : Vec Ideal S4000x128 .f32) x = (V c main_v77 : Vec Ideal S100000x128 .f32) k := by
  have e := idx_facts t
  unfold iblk1
  rw [View.read_apply]
  show (V c main_v77 : Vec Ideal S100000x128 .f32) _ = _
  refine congrArg (V c main_v77 : Vec Ideal S100000x128 .f32) ?_
  funext a
  apply Fin.ext
  match a with
  | ⟨0, _⟩ => show win1_0.index t (0 : Fin 2) * 4000 + 1 * (x 0).val = (k 0).val; rw [e.w0.1, hk0]; omega
  | ⟨1, _⟩ => show win1_0.index t (1 : Fin 2) * 128 + 1 * (x 1).val = (k 1).val; rw [e.w0.2, hk1]; omega

/-! Each parameter window's one block is its whole array. -/

theorem iblk_1 (c : Dev nD) (t : Fin cfg1.N) (x : S128x128.Idx) :
    (iblk1 V c 1 t : Vec Ideal S128x128 .f32) x = (V c main_arg5 : Vec Ideal S128x128 .f32) x := by
  have e := idx_facts t
  unfold iblk1
  rw [View.read_apply]
  show (V c main_arg5 : Vec Ideal S128x128 .f32) _ = _
  refine congrArg (V c main_arg5 : Vec Ideal S128x128 .f32) ?_
  funext a
  apply Fin.ext
  match a with
  | ⟨0, _⟩ => show win1_1.index t (0 : Fin 2) * 128 + 1 * (x 0).val = (x 0).val; rw [(e.w1).1]; omega
  | ⟨1, _⟩ => show win1_1.index t (1 : Fin 2) * 128 + 1 * (x 1).val = (x 1).val; rw [(e.w1).2]; omega

theorem iblk_2 (c : Dev nD) (t : Fin cfg1.N) (x : S1x128.Idx) :
    (iblk1 V c 2 t : Vec Ideal S1x128 .f32) x = (V c main_v78 : Vec Ideal S1x128 .f32) x := by
  have e := idx_facts t
  unfold iblk1
  rw [View.read_apply]
  show (V c main_v78 : Vec Ideal S1x128 .f32) _ = _
  refine congrArg (V c main_v78 : Vec Ideal S1x128 .f32) ?_
  funext a
  apply Fin.ext
  match a with
  | ⟨0, _⟩ => show win1_2.index t (0 : Fin 2) * 1 + 1 * (x 0).val = (x 0).val; rw [(e.w2).1]; omega
  | ⟨1, _⟩ => show win1_2.index t (1 : Fin 2) * 128 + 1 * (x 1).val = (x 1).val; rw [(e.w2).2]; omega

theorem iblk_3 (c : Dev nD) (t : Fin cfg1.N) (x : S128x128.Idx) :
    (iblk1 V c 3 t : Vec Ideal S128x128 .f32) x = (V c main_arg7 : Vec Ideal S128x128 .f32) x := by
  have e := idx_facts t
  unfold iblk1
  rw [View.read_apply]
  show (V c main_arg7 : Vec Ideal S128x128 .f32) _ = _
  refine congrArg (V c main_arg7 : Vec Ideal S128x128 .f32) ?_
  funext a
  apply Fin.ext
  match a with
  | ⟨0, _⟩ => show win1_3.index t (0 : Fin 2) * 128 + 1 * (x 0).val = (x 0).val; rw [(e.w3).1]; omega
  | ⟨1, _⟩ => show win1_3.index t (1 : Fin 2) * 128 + 1 * (x 1).val = (x 1).val; rw [(e.w3).2]; omega

theorem iblk_4 (c : Dev nD) (t : Fin cfg1.N) (x : S1x128.Idx) :
    (iblk1 V c 4 t : Vec Ideal S1x128 .f32) x = (V c main_v79 : Vec Ideal S1x128 .f32) x := by
  have e := idx_facts t
  unfold iblk1
  rw [View.read_apply]
  show (V c main_v79 : Vec Ideal S1x128 .f32) _ = _
  refine congrArg (V c main_v79 : Vec Ideal S1x128 .f32) ?_
  funext a
  apply Fin.ext
  match a with
  | ⟨0, _⟩ => show win1_4.index t (0 : Fin 2) * 1 + 1 * (x 0).val = (x 0).val; rw [(e.w4).1]; omega
  | ⟨1, _⟩ => show win1_4.index t (1 : Fin 2) * 128 + 1 * (x 1).val = (x 1).val; rw [(e.w4).2]; omega

theorem iblk_5 (c : Dev nD) (t : Fin cfg1.N) (x : S128x32.Idx) :
    (iblk1 V c 5 t : Vec Ideal S128x32 .f32) x = (V c main_arg9 : Vec Ideal S128x32 .f32) x := by
  have e := idx_facts t
  unfold iblk1
  rw [View.read_apply]
  show (V c main_arg9 : Vec Ideal S128x32 .f32) _ = _
  refine congrArg (V c main_arg9 : Vec Ideal S128x32 .f32) ?_
  funext a
  apply Fin.ext
  match a with
  | ⟨0, _⟩ => show win1_5.index t (0 : Fin 2) * 128 + 1 * (x 0).val = (x 0).val; rw [(e.w5).1]; omega
  | ⟨1, _⟩ => show win1_5.index t (1 : Fin 2) * 32 + 1 * (x 1).val = (x 1).val; rw [(e.w5).2]; omega

theorem iblk_6 (c : Dev nD) (t : Fin cfg1.N) (x : S1x32.Idx) :
    (iblk1 V c 6 t : Vec Ideal S1x32 .f32) x = (V c main_v80 : Vec Ideal S1x32 .f32) x := by
  have e := idx_facts t
  unfold iblk1
  rw [View.read_apply]
  show (V c main_v80 : Vec Ideal S1x32 .f32) _ = _
  refine congrArg (V c main_v80 : Vec Ideal S1x32 .f32) ?_
  funext a
  apply Fin.ext
  match a with
  | ⟨0, _⟩ => show win1_6.index t (0 : Fin 2) * 1 + 1 * (x 0).val = (x 0).val; rw [(e.w6).1]; omega
  | ⟨1, _⟩ => show win1_6.index t (1 : Fin 2) * 32 + 1 * (x 1).val = (x 1).val; rw [(e.w6).2]; omega

/-- The body's value at block entry (p, q), as a hypothesis: the last three layers and the softmax of block row p. -/
abbrev PayFact : Prop :=
  ∀ (x0 : Vec Ideal S4000x128 .f32) (x1 : Vec Ideal S128x128 .f32) (x2 : Vec Ideal S1x128 .f32) (x3 : Vec Ideal S128x128 .f32)
    (x4 : Vec Ideal S1x128 .f32) (x5 : Vec Ideal S128x32 .f32) (x6 : Vec Ideal S1x32 .f32) (p : Fin 4000) (q : Fin 32),
    k1_pay1 (F := Ideal) (k1_pay2 (F := Ideal) x0 x1 x2 x3 x4 x5 x6) (ix2 p q)
      = Cert.HGap.tailRow (fun l => x0 (ix2 p l)) (fun l n => x1 (ix2 l n)) (fun n => x2 (ix2 (0 : Fin 1) n))
          (fun l n => x3 (ix2 l n)) (fun n => x4 (ix2 (0 : Fin 1) n)) (fun l n => x5 (ix2 l n)) (fun n => x6 (ix2 (0 : Fin 1) n)) q

/-- What point t writes back is block t of the row-wise tail of the arrays as the region finds them. -/
theorem flushed_eq (hpay : PayFact) (c : Dev nD) (t : Fin cfg1.N) :
    (dat1 V c).flushed 7 t = ((cfg1.win 7).blk t).view.read (Elt Ideal)
      (rowsTail (V c main_v77) (V c main_arg5) (V c main_v78) (V c main_arg7) (V c main_v79) (V c main_arg9) (V c main_v80)) := by
  show (cfg1.win 7).cut (grid1.coords t) ((dat1 V c).after 7 t) = _
  rw [after1_7]
  unfold out1_7
  rw [View.canon_unit_zero hz]
  simp only [View.ld_unit_zero (S := S4000x128) hz, View.ld_unit_zero (S := S128x128) hz, View.ld_unit_zero (S := S1x128) hz,
    View.ld_unit_zero (S := S128x32) hz, View.ld_unit_zero (S := S1x32) hz]
  have e := idx_facts t
  funext y
  obtain ⟨p, q, rfl⟩ : ∃ (p : Fin 4000) (q : Fin 32), y = ix2 p q := ⟨y 0, y 1, eq_ix2 y⟩
  have hr : t.val * 4000 + p.val < 100000 := by
    have h := t.isLt; have hN : cfg1.N = 25 := N_1; have := p.isLt; omega
  have hemb : ((cfg1.win 7).blk t).view.emb (ix2 p q) = ix2 (⟨t.val * 4000 + p.val, hr⟩ : Fin 100000) q := by
    funext a
    apply Fin.ext
    match a with
    | ⟨0, _⟩ => show win1_7.index t (0 : Fin 2) * 4000 + 1 * p.val = t.val * 4000 + p.val; rw [e.w7.1]; omega
    | ⟨1, _⟩ => show win1_7.index t (1 : Fin 2) * 32 + 1 * q.val = q.val; rw [e.w7.2]; omega
  show k1_pay1 (F := Ideal) (k1_pay2 (F := Ideal) (iblk1 V c 0 t) (iblk1 V c 1 t) (iblk1 V c 2 t) (iblk1 V c 3 t) (iblk1 V c 4 t) (iblk1 V c 5 t) (iblk1 V c 6 t)) (ix2 p q)
    = rowsTail _ _ _ _ _ _ _ (((cfg1.win 7).blk t).view.emb (ix2 p q))
  rw [hemb, rowsTail_apply, hpay]
  have h0 : (fun l : Fin 128 => (iblk1 V c 0 t : Vec Ideal S4000x128 .f32) (ix2 p l))
      = fun l : Fin 128 => (V c main_v77 : Vec Ideal S100000x128 .f32) (ix2 (⟨t.val * 4000 + p.val, hr⟩ : Fin 100000) l) :=
    funext fun l => iblk_x V c t (ix2 p l) (ix2 (⟨t.val * 4000 + p.val, hr⟩ : Fin 100000) l) rfl rfl
  have h1 : (fun (l : Fin 128) (n : Fin 128) => (iblk1 V c 1 t : Vec Ideal S128x128 .f32) (ix2 l n))
      = fun (l : Fin 128) (n : Fin 128) => (V c main_arg5 : Vec Ideal S128x128 .f32) (ix2 l n) :=
    funext fun l => funext fun n => iblk_1 V c t (ix2 l n)
  have h2 : (fun n : Fin 128 => (iblk1 V c 2 t : Vec Ideal S1x128 .f32) (ix2 (0 : Fin 1) n))
      = fun n : Fin 128 => (V c main_v78 : Vec Ideal S1x128 .f32) (ix2 (0 : Fin 1) n) :=
    funext fun n => iblk_2 V c t (ix2 (0 : Fin 1) n)
  have h3 : (fun (l : Fin 128) (n : Fin 128) => (iblk1 V c 3 t : Vec Ideal S128x128 .f32) (ix2 l n))
      = fun (l : Fin 128) (n : Fin 128) => (V c main_arg7 : Vec Ideal S128x128 .f32) (ix2 l n) :=
    funext fun l => funext fun n => iblk_3 V c t (ix2 l n)
  have h4 : (fun n : Fin 128 => (iblk1 V c 4 t : Vec Ideal S1x128 .f32) (ix2 (0 : Fin 1) n))
      = fun n : Fin 128 => (V c main_v79 : Vec Ideal S1x128 .f32) (ix2 (0 : Fin 1) n) :=
    funext fun n => iblk_4 V c t (ix2 (0 : Fin 1) n)
  have h5 : (fun (l : Fin 128) (n : Fin 32) => (iblk1 V c 5 t : Vec Ideal S128x32 .f32) (ix2 l n))
      = fun (l : Fin 128) (n : Fin 32) => (V c main_arg9 : Vec Ideal S128x32 .f32) (ix2 l n) :=
    funext fun l => funext fun n => iblk_5 V c t (ix2 l n)
  have h6 : (fun n : Fin 32 => (iblk1 V c 6 t : Vec Ideal S1x32 .f32) (ix2 (0 : Fin 1) n))
      = fun n : Fin 32 => (V c main_v80 : Vec Ideal S1x32 .f32) (ix2 (0 : Fin 1) n) :=
    funext fun n => iblk_6 V c t (ix2 (0 : Fin 1) n)
  rw [h0, h1, h2, h3, h4, h5, h6]

/-- An index of the output array is in point t's block iff each coordinate is in the block's range on its axis. -/
theorem mem_blk (t : Fin cfg1.N) (i : S100000x32.Idx) :
    i ∈ ((cfg1.win 7).blk t).view.set ↔ ∀ a : Fin 2, win1_7.index t a * S4000x32.size a ≤ (i a).val ∧ (i a).val < win1_7.index t a * S4000x32.size a + S4000x32.size a := by
  show i ∈ ((View.whole main_v81).slice (win1_7.rect t)).set ↔ _
  rw [View.set_slice_whole, Rect.mem_set_unit]
  exact Iff.rfl

/-- Every row lies in the block of the point numbered by the row divided by 4000. -/
theorem cover (i : S100000x32.Idx) : ∃ t : Fin cfg1.N, (cfg1.win 7).flush t = true ∧ i ∈ ((cfg1.win 7).blk t).view.set := by
  have hi0 : (i 0).val < 100000 := idx2_lt0 i
  have hi1 : (i 1).val < 32 := (i 1).isLt
  have hN : cfg1.N = 25 := N_1
  refine ⟨⟨(i 0).val / 4000, by rw [hN]; omega⟩, flush1_7 _, ?_⟩
  rw [mem_blk]
  have e := idx_facts ⟨(i 0).val / 4000, by rw [hN]; omega⟩
  intro a
  match a with
  | ⟨0, _⟩ =>
    show win1_7.index _ (0 : Fin 2) * 4000 ≤ (i 0).val ∧ (i 0).val < win1_7.index _ (0 : Fin 2) * 4000 + 4000
    rw [e.w7.1]; show (i 0).val / 4000 * 4000 ≤ (i 0).val ∧ (i 0).val < (i 0).val / 4000 * 4000 + 4000; omega
  | ⟨1, _⟩ =>
    show win1_7.index _ (1 : Fin 2) * 32 ≤ (i 1).val ∧ (i 1).val < win1_7.index _ (1 : Fin 2) * 32 + 32
    rw [e.w7.2]; omega

/-- The output array after the region: the tail's row map of every row of the feature array it found. -/
theorem final (hpay : PayFact) (c : Dev nD) :
    (dat1 V c).arrAt 7 cfg1.N
      = rowsTail (V c main_v77) (V c main_arg5) (V c main_v78) (V c main_arg7) (V c main_v79) (V c main_arg9) (V c main_v80) :=
  (dat1 V c).arrAt_eq_of_cover 7 _ (fun t _ => flushed_eq V hpay c t) cover

end Cert.HGap.K1

end
-- ==== Proof.KernelValue.lean ====
/-
  The idealized kernel program's result as a function of its arguments.

  Reading the boundary contents back through the program: the first region finds the neighbourhood averaging of the input
  features, the first weight matrix and the first bias as a row; it leaves the rectified dense layer of every row.  The
  second stretch of host operations averages that again and casts the three remaining biases to rows; the second region
  leaves the last three layers and the softmax of every row.  The averaging is kept as one unopened function.
-/
import proofs.«145335_j50972671869731_1_alg».proof.Proof.KernelRun
import proofs.«145335_j50972671869731_1_alg».proof.Proof.Region0
import proofs.«145335_j50972671869731_1_alg».proof.Proof.Region1
import Idealize.ShloMosaic.Lib.StableHlo.Run

set_option maxRecDepth 16384

noncomputable section

namespace Cert.HGap.K

open Cert.KernelIdeal Cert.KernelIdeal.Gen
open Idealize.ShloMosaic Idealize.ShloMosaic.TcCoe Idealize.SL.Sem Idealize.ShloMosaic.StableHlo

section
variable {F : FTy → Type} [FloatOps F]

/-- One neighbourhood averaging: gather the node rows along the incidence list, average them per hyperedge (sum by
    scatter-add, divide by the count clamped below at 1), gather the hyperedge rows back along the list and average them per
    node the same way.  The index arrays are wrapped when negative, as the gathers print them. -/
def glue (x0 : (⟨S100000x128, .f32⟩ : BufTy).Contents (Elt F)) (x1 x2 : (⟨S800000, .i32⟩ : BufTy).Contents (Elt F)) : (⟨S100000x128, .f32⟩ : BufTy).Contents (Elt F) :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 x1) (Host.gather gather_S200000x128_S800000x1_S800000x128_1_0_n_n_0_1_1128 (Host.divf (Host.scatterAdd scatter_S200000x128_S800000x1_S800000x128_1_0_0_1 (broadcastInDim S200000x128 ![] bcast_S_S200000x128 (constant S_ .f32 0x00000000#32)) (broadcastInDim S800000x1 ![0] bcast_S800000_S800000x1_0 x2) (Host.gather gather_S100000x128_S800000x1_S800000x128_1_0_n_n_0_1_1128 x0 (broadcastInDim S800000x1 ![0] bcast_S800000_S800000x1_0 (select (cmpi .slt x1 (broadcastInDim S800000 ![] bcast_S_S800000 (constantI S_ 32 0#32))) (addi x1 (broadcastInDim S800000 ![] bcast_S_S800000 (constantI S_ 32 100000#32))) x1)))) (broadcastInDim S200000x128 ![0, 1] bcast_S200000x1_S200000x128_0_1 (broadcastInDim S200000x1 ![0] bcast_S200000_S200000x1_0 (maximumf (Host.scatterAdd scatter_S200000_S800000x1_S800000_n_0_0_1 (broadcastInDim S200000 ![] bcast_S_S200000 (constant S_ .f32 0x00000000#32)) (broadcastInDim S800000x1 ![0] bcast_S800000_S800000x1_0 x2) (broadcastInDim S800000 ![] bcast_S_S800000 (constant S_ .f32 0x3F800000#32))) (broadcastInDim S200000 ![] bcast_S_S200000 (constant S_ .f32 0x3F800000#32)))))) (broadcastInDim S800000x1 ![0] bcast_S800000_S800000x1_0 (select (cmpi .slt x2 (broadcastInDim S800000 ![] bcast_S_S800000 (constantI S_ 32 0#32))) (addi x2 (broadcastInDim S800000 ![] bcast_S_S800000 (constantI S_ 32 200000#32))) x2)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 x1) (broadcastInDim S800000 ![] bcast_S_S800000 (constant S_ .f32 0x3F800000#32))) (broadcastInDim S100000 ![] bcast_S_S100000 (constant S_ .f32 0x3F800000#32)))))

end

variable (m : (ℓ : Loc nD τ sig) → Buf (Elt Ideal) ℓ) (ρ : Dev nD → PrngReg) (c : Dev nD)

/-! ## What the first region finds -/

set_option maxHeartbeats 4000000 in
theorem V1_feat : V1 m ρ c main_v37 = glue (m ((c.tc : Thread nD τ).loc main_arg0)) (m ((c.tc : Thread nD τ).loc main_arg1)) (m ((c.tc : Thread nD τ).loc main_arg2)) := by
  show StableHlo.after hostOps0 (W0 m ρ c) (Proc.devRef .tc main_v37) = _
  after_results_simp <;> rfl

set_option maxHeartbeats 4000000 in
theorem V1_w : V1 m ρ c main_arg3 = (m ((c.tc : Thread nD τ).loc main_arg3)) := by
  show StableHlo.after hostOps0 (W0 m ρ c) (Proc.devRef .tc main_arg3) = _
  after_results_simp <;> rfl

set_option maxHeartbeats 4000000 in
theorem V1_b : V1 m ρ c main_v38 = shapeCast S1x128 (m ((c.tc : Thread nD τ).loc main_arg4)) shapeCasts_S128_S1x128 := by
  show StableHlo.after hostOps0 (W0 m ρ c) (Proc.devRef .tc main_v38) = _
  after_results_simp <;> rfl

/-! ## The arguments the later stages read are untouched by the first stretch and the first region -/

set_option maxHeartbeats 4000000 in
theorem W1_main_arg1 : W1 m ρ c (Proc.devRef .tc main_arg1) = (m ((c.tc : Thread nD τ).loc main_arg1)) := by
  show StableHlo.after hostOps0 (W0 m ρ c) (Proc.devRef .tc main_arg1) = _
  after_results_simp <;> rfl

set_option maxHeartbeats 4000000 in
theorem W1_main_arg2 : W1 m ρ c (Proc.devRef .tc main_arg2) = (m ((c.tc : Thread nD τ).loc main_arg2)) := by
  show StableHlo.after hostOps0 (W0 m ρ c) (Proc.devRef .tc main_arg2) = _
  after_results_simp <;> rfl

set_option maxHeartbeats 4000000 in
theorem W1_main_arg5 : W1 m ρ c (Proc.devRef .tc main_arg5) = (m ((c.tc : Thread nD τ).loc main_arg5)) := by
  show StableHlo.after hostOps0 (W0 m ρ c) (Proc.devRef .tc main_arg5) = _
  after_results_simp <;> rfl

set_option maxHeartbeats 4000000 in
theorem W1_main_arg6 : W1 m ρ c (Proc.devRef .tc main_arg6) = (m ((c.tc : Thread nD τ).loc main_arg6)) := by
  show StableHlo.after hostOps0 (W0 m ρ c) (Proc.devRef .tc main_arg6) = _
  after_results_simp <;> rfl

set_option maxHeartbeats 4000000 in
theorem W1_main_arg7 : W1 m ρ c (Proc.devRef .tc main_arg7) = (m ((c.tc : Thread nD τ).loc main_arg7)) := by
  show StableHlo.after hostOps0 (W0 m ρ c) (Proc.devRef .tc main_arg7) = _
  after_results_simp <;> rfl

set_option maxHeartbeats 4000000 in
theorem W1_main_arg8 : W1 m ρ c (Proc.devRef .tc main_arg8) = (m ((c.tc : Thread nD τ).loc main_arg8)) := by
  show StableHlo.after hostOps0 (W0 m ρ c) (Proc.devRef .tc main_arg8) = _
  after_results_simp <;> rfl

set_option maxHeartbeats 4000000 in
theorem W1_main_arg9 : W1 m ρ c (Proc.devRef .tc main_arg9) = (m ((c.tc : Thread nD τ).loc main_arg9)) := by
  show StableHlo.after hostOps0 (W0 m ρ c) (Proc.devRef .tc main_arg9) = _
  after_results_simp <;> rfl

set_option maxHeartbeats 4000000 in
theorem W1_main_arg10 : W1 m ρ c (Proc.devRef .tc main_arg10) = (m ((c.tc : Thread nD τ).loc main_arg10)) := by
  show StableHlo.after hostOps0 (W0 m ρ c) (Proc.devRef .tc main_arg10) = _
  after_results_simp <;> rfl

theorem W2_main_arg1 : W2 m ρ c (Proc.devRef .tc main_arg1) = (m ((c.tc : Thread nD τ).loc main_arg1)) :=
  (W2_of_ne m ρ c main_arg1 (by decide)).trans (W1_main_arg1 m ρ c)
theorem W2_main_arg2 : W2 m ρ c (Proc.devRef .tc main_arg2) = (m ((c.tc : Thread nD τ).loc main_arg2)) :=
  (W2_of_ne m ρ c main_arg2 (by decide)).trans (W1_main_arg2 m ρ c)
theorem W2_main_arg5 : W2 m ρ c (Proc.devRef .tc main_arg5) = (m ((c.tc : Thread nD τ).loc main_arg5)) :=
  (W2_of_ne m ρ c main_arg5 (by decide)).trans (W1_main_arg5 m ρ c)
theorem W2_main_arg6 : W2 m ρ c (Proc.devRef .tc main_arg6) = (m ((c.tc : Thread nD τ).loc main_arg6)) :=
  (W2_of_ne m ρ c main_arg6 (by decide)).trans (W1_main_arg6 m ρ c)
theorem W2_main_arg7 : W2 m ρ c (Proc.devRef .tc main_arg7) = (m ((c.tc : Thread nD τ).loc main_arg7)) :=
  (W2_of_ne m ρ c main_arg7 (by decide)).trans (W1_main_arg7 m ρ c)
theorem W2_main_arg8 : W2 m ρ c (Proc.devRef .tc main_arg8) = (m ((c.tc : Thread nD τ).loc main_arg8)) :=
  (W2_of_ne m ρ c main_arg8 (by decide)).trans (W1_main_arg8 m ρ c)
theorem W2_main_arg9 : W2 m ρ c (Proc.devRef .tc main_arg9) = (m ((c.tc : Thread nD τ).loc main_arg9)) :=
  (W2_of_ne m ρ c main_arg9 (by decide)).trans (W1_main_arg9 m ρ c)
theorem W2_main_arg10 : W2 m ρ c (Proc.devRef .tc main_arg10) = (m ((c.tc : Thread nD τ).loc main_arg10)) :=
  (W2_of_ne m ρ c main_arg10 (by decide)).trans (W1_main_arg10 m ρ c)

/-- The first region's output array: the rectified dense layer of every row of the averaged features. -/
theorem W2_out (hpay : Cert.HGap.K0.PayFact) :
    W2 m ρ c (Proc.devRef .tc main_v39)
      = Cert.HGap.K0.rowsDense (glue (m ((c.tc : Thread nD τ).loc main_arg0)) (m ((c.tc : Thread nD τ).loc main_arg1)) (m ((c.tc : Thread nD τ).loc main_arg2))) (m ((c.tc : Thread nD τ).loc main_arg3))
          (shapeCast S1x128 (m ((c.tc : Thread nD τ).loc main_arg4)) shapeCasts_S128_S1x128) := by
  refine (W2_arr m ρ c 3).trans ((Cert.HGap.K0.final (V1 m ρ) hpay c).trans ?_)
  rw [V1_feat, V1_w, V1_b]

/-! ## What the second region finds -/

set_option maxHeartbeats 4000000 in
theorem V3_feat : V3 m ρ c main_v77
    = glue (W2 m ρ c (Proc.devRef .tc main_v39)) (W2 m ρ c (Proc.devRef .tc main_arg1)) (W2 m ρ c (Proc.devRef .tc main_arg2)) := by
  show StableHlo.after hostOps1 (W2 m ρ c) (Proc.devRef .tc main_v77) = _
  after_results_simp <;> rfl

set_option maxHeartbeats 4000000 in
theorem V3_w2 : V3 m ρ c main_arg5 = W2 m ρ c (Proc.devRef .tc main_arg5) := by
  show StableHlo.after hostOps1 (W2 m ρ c) (Proc.devRef .tc main_arg5) = _
  after_results_simp <;> rfl

set_option maxHeartbeats 4000000 in
theorem V3_wm1 : V3 m ρ c main_arg7 = W2 m ρ c (Proc.devRef .tc main_arg7) := by
  show StableHlo.after hostOps1 (W2 m ρ c) (Proc.devRef .tc main_arg7) = _
  after_results_simp <;> rfl

set_option maxHeartbeats 4000000 in
theorem V3_wm2 : V3 m ρ c main_arg9 = W2 m ρ c (Proc.devRef .tc main_arg9) := by
  show StableHlo.after hostOps1 (W2 m ρ c) (Proc.devRef .tc main_arg9) = _
  after_results_simp <;> rfl

set_option maxHeartbeats 4000000 in
theorem V3_b2 : V3 m ρ c main_v78 = shapeCast S1x128 (W2 m ρ c (Proc.devRef .tc main_arg6)) shapeCasts_S128_S1x128 := by
  show StableHlo.after hostOps1 (W2 m ρ c) (Proc.devRef .tc main_v78) = _
  after_results_simp <;> rfl

set_option maxHeartbeats 4000000 in
theorem V3_bm1 : V3 m ρ c main_v79 = shapeCast S1x128 (W2 m ρ c (Proc.devRef .tc main_arg8)) shapeCasts_S128_S1x128 := by
  show StableHlo.after hostOps1 (W2 m ρ c) (Proc.devRef .tc main_v79) = _
  after_results_simp <;> rfl

set_option maxHeartbeats 4000000 in
theorem V3_bm2 : V3 m ρ c main_v80 = shapeCast S1x32 (W2 m ρ c (Proc.devRef .tc main_arg10)) shapeCasts_S32_S1x32 := by
  show StableHlo.after hostOps1 (W2 m ρ c) (Proc.devRef .tc main_v80) = _
  after_results_simp <;> rfl

/-! ## The result -/

/-- The kernel program as a function of its eleven arguments: average, rectified dense layer row by row, average again,
    the last three layers and the softmax row by row; the biases enter as 1 × n rows. -/
def whole (x0 : (⟨S100000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x32, .f32⟩ : BufTy).Contents (Elt Ideal)) (x10 : (⟨S32, .f32⟩ : BufTy).Contents (Elt Ideal)) :
    (⟨S100000x32, .f32⟩ : BufTy).Contents (Elt Ideal) :=
  Cert.HGap.K1.rowsTail
    (glue (Cert.HGap.K0.rowsDense (glue x0 x1 x2) x3 (shapeCast S1x128 x4 shapeCasts_S128_S1x128)) x1 x2)
    x5 (shapeCast S1x128 x6 shapeCasts_S128_S1x128) x7 (shapeCast S1x128 x8 shapeCasts_S128_S1x128)
    x9 (shapeCast S1x32 x10 shapeCasts_S32_S1x32)

/-- Equal arrays in, equal averaging out. -/
theorem glue_congr {x0 x0' : (⟨S100000x128, .f32⟩ : BufTy).Contents (Elt Ideal)} {x1 x1' x2 x2' : (⟨S800000, .i32⟩ : BufTy).Contents (Elt Ideal)}
    (h0 : x0 = x0') (h1 : x1 = x1') (h2 : x2 = x2') : glue (F := Ideal) x0 x1 x2 = glue (F := Ideal) x0' x1' x2' := by
  subst h0 h1 h2; rfl

/-- Equal arrays in, equal row-wise tail out. -/
theorem tail_congr {a a' : Vec Ideal S100000x128 .f32} {b b' : Vec Ideal S128x128 .f32} {d d' : Vec Ideal S1x128 .f32} {e e' : Vec Ideal S128x128 .f32}
    {f f' : Vec Ideal S1x128 .f32} {g g' : Vec Ideal S128x32 .f32} {k k' : Vec Ideal S1x32 .f32}
    (ha : a = a') (hb : b = b') (hd : d = d') (he : e = e') (hf : f = f') (hg : g = g') (hk : k = k') :
    Cert.HGap.K1.rowsTail a b d e f g k = Cert.HGap.K1.rowsTail a' b' d' e' f' g' k' := by
  subst ha hb hd he hf hg hk; rfl

/-- The result buffer's final contents are that function of the arguments as launched. -/
theorem result_eq (hpay0 : Cert.HGap.K0.PayFact) (hpay1 : Cert.HGap.K1.PayFact) :
    W4 m ρ c (Proc.devRef .tc main_v81)
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W4_arr m ρ c 7).trans ((Cert.HGap.K1.final (V3 m ρ) hpay1 c).trans (tail_congr
    ((V3_feat m ρ c).trans (glue_congr (W2_out m ρ c hpay0) (W2_main_arg1 m ρ c) (W2_main_arg2 m ρ c)))
    ((V3_w2 m ρ c).trans (W2_main_arg5 m ρ c))
    ((V3_b2 m ρ c).trans (congrArg (fun b => shapeCast S1x128 b shapeCasts_S128_S1x128) (W2_main_arg6 m ρ c)))
    ((V3_wm1 m ρ c).trans (W2_main_arg7 m ρ c))
    ((V3_bm1 m ρ c).trans (congrArg (fun b => shapeCast S1x128 b shapeCasts_S128_S1x128) (W2_main_arg8 m ρ c)))
    ((V3_wm2 m ρ c).trans (W2_main_arg9 m ρ c))
    ((V3_bm2 m ρ c).trans (congrArg (fun b => shapeCast S1x32 b shapeCasts_S32_S1x32) (W2_main_arg10 m ρ c)))))

end Cert.HGap.K

end
-- ==== Proof.RefTerms.lean ====
/-
  The reference's three kinds of stage after the neighbourhood averaging, as functions of whole arrays.

  A rectified dense layer (matrix product with the weights, the bias spread over the rows, maximum with 0), the affine
  map to the logits, and the row softmax (row maximum from −∞ and once more against −∞, spread over the row,
  subtract, exponentiate, row sum from 0, spread, divide) — each written with the host operations the reference
  program applies, so that the program's stages are these functions applied to one another.
-/
import proofs.«145335_j50972671869731_1_alg».proof.Proof.Gen.ReferenceIdeal.Read

noncomputable section

namespace Cert.HGap.Ref

open Cert.ReferenceIdeal Cert.ReferenceIdeal.Gen Idealize.ShloMosaic

variable {F : FTy → Type} [FloatOps F]

/-- max(X·W + b, 0) on a 100000 × 128 array of rows. -/
def denseH (X : FVec F S100000x128 .f32) (W : FVec F S128x128 .f32) (b : FVec F S128 .f32) : FVec F S100000x128 .f32 :=
  maximumf
    (addf (Host.dotGeneral dot_S100000x128_S128x128_S100000x128_1_0_0_1_n_n none X W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- X·W + b from 128 features to the 32 logits. -/
def logitsH (X : FVec F S100000x128 .f32) (W : FVec F S128x32 .f32) (b : FVec F S32 .f32) : FVec F S100000x32 .f32 :=
  addf (Host.dotGeneral dot_S100000x128_S128x32_S100000x32_1_0_0_1_n_n none X W)
    (broadcastInDim S100000x32 ![0, 1] bcast_S1x32_S100000x32_0_1 (broadcastInDim S1x32 ![1] bcast_S32_S1x32_1 b))

/-- The row maximum spread back over the row. -/
def rowMaxH (L : FVec F S100000x32 .f32) : FVec F S100000x32 .f32 :=
  broadcastInDim S100000x32 ![0, 1] bcast_S100000x1_S100000x32_0_1 (broadcastInDim S100000x1 ![0] bcast_S100000_S100000x1_0
    (maximumf (broadcastInDim S100000 ![] bcast_S_S100000 (constant S_ .f32 0xFF800000#32))
      (Host.reduce FloatOps.maximumf L (constant S_ .f32 0xFF800000#32) reducesTo_S100000x32_S100000_d1 h_S_)))

/-- exp(L − row maximum). -/
def expH (L : FVec F S100000x32 .f32) : FVec F S100000x32 .f32 :=
  Host.exp (subf L (rowMaxH L))

/-- The row softmax of the logits. -/
def softmaxH (L : FVec F S100000x32 .f32) : FVec F S100000x32 .f32 :=
  Host.divf (expH L)
    (broadcastInDim S100000x32 ![0, 1] bcast_S100000x1_S100000x32_0_1 (broadcastInDim S100000x1 ![0] bcast_S100000_S100000x1_0
      (Host.reduceAdd (expH L) (constant S_ .f32 0x00000000#32) reducesTo_S100000x32_S100000_d1 h_S_)))

end Cert.HGap.Ref

end
-- ==== Proof.RefSide.lean ====
/-
  The reference program's result as its stages applied to one another.

  The reference is two rounds of  neighbourhood averaging → rectified dense layer,  then a second rectified dense
  layer, the affine map to the logits and the row softmax.  The generated run states the result as one long term of the
  arguments; here that term is recognised as the named stage functions composed, the averaging kept as one unopened
  function of the feature array and the two index arrays.
-/
import proofs.«145335_j50972671869731_1_alg».proof.Proof.RefTerms

set_option maxRecDepth 16384

noncomputable section

namespace Cert.HGap.Ref

open Cert.ReferenceIdeal Cert.ReferenceIdeal.Gen Idealize.ShloMosaic Idealize.ShloMosaic.TcCoe Idealize.SL.Sem

variable {F : FTy → Type} [FloatOps F]

/-- One neighbourhood averaging: gather the node rows along the incidence list, average them per hyperedge (sum by
    scatter-add, divide by the count clamped below at 1), gather the hyperedge rows back along the list and average them per
    node the same way.  The index arrays are wrapped when negative, as the gathers print them. -/
def glue (x0 : (⟨S100000x128, .f32⟩ : BufTy).Contents (Elt F)) (x1 x2 : (⟨S800000, .i32⟩ : BufTy).Contents (Elt F)) : (⟨S100000x128, .f32⟩ : BufTy).Contents (Elt F) :=
  Host.divf (Host.scatterAdd scatter_S100000x128_S800000x1_S800000x128_1_0_0_1 (broadcastInDim S100000x128 ![] bcast_S_S100000x128 (constant S_ .f32 0x00000000#32)) (broadcastInDim S800000x1 ![0] bcast_S800000_S800000x1_0 x1) (Host.gather gather_S200000x128_S800000x1_S800000x128_1_0_n_n_0_1_1128 (Host.divf (Host.scatterAdd scatter_S200000x128_S800000x1_S800000x128_1_0_0_1 (broadcastInDim S200000x128 ![] bcast_S_S200000x128 (constant S_ .f32 0x00000000#32)) (broadcastInDim S800000x1 ![0] bcast_S800000_S800000x1_0 x2) (Host.gather gather_S100000x128_S800000x1_S800000x128_1_0_n_n_0_1_1128 x0 (broadcastInDim S800000x1 ![0] bcast_S800000_S800000x1_0 (select (cmpi .slt x1 (broadcastInDim S800000 ![] bcast_S_S800000 (constantI S_ 32 0#32))) (addi x1 (broadcastInDim S800000 ![] bcast_S_S800000 (constantI S_ 32 100000#32))) x1)))) (broadcastInDim S200000x128 ![0, 1] bcast_S200000x1_S200000x128_0_1 (broadcastInDim S200000x1 ![0] bcast_S200000_S200000x1_0 (maximumf (Host.scatterAdd scatter_S200000_S800000x1_S800000_n_0_0_1 (broadcastInDim S200000 ![] bcast_S_S200000 (constant S_ .f32 0x00000000#32)) (broadcastInDim S800000x1 ![0] bcast_S800000_S800000x1_0 x2) (broadcastInDim S800000 ![] bcast_S_S800000 (constant S_ .f32 0x3F800000#32))) (broadcastInDim S200000 ![] bcast_S_S200000 (constant S_ .f32 0x3F800000#32)))))) (broadcastInDim S800000x1 ![0] bcast_S800000_S800000x1_0 (select (cmpi .slt x2 (broadcastInDim S800000 ![] bcast_S_S800000 (constantI S_ 32 0#32))) (addi x2 (broadcastInDim S800000 ![] bcast_S_S800000 (constantI S_ 32 200000#32))) x2)))) (broadcastInDim S100000x128 ![0, 1] bcast_S100000x1_S100000x128_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 x1) (broadcastInDim S800000 ![] bcast_S_S800000 (constant S_ .f32 0x3F800000#32))) (broadcastInDim S100000 ![] bcast_S_S100000 (constant S_ .f32 0x3F800000#32)))))

/-- The whole reference as a function of its eleven arguments. -/
def whole (x0 : (⟨S100000x128, .f32⟩ : BufTy).Contents (Elt F)) (x1 x2 : (⟨S800000, .i32⟩ : BufTy).Contents (Elt F))
    (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (x7 : (⟨S128x128, .f32⟩ : BufTy).Contents (Elt F)) (x8 : (⟨S128, .f32⟩ : BufTy).Contents (Elt F)) (x9 : (⟨S128x32, .f32⟩ : BufTy).Contents (Elt F)) (x10 : (⟨S32, .f32⟩ : BufTy).Contents (Elt F)) :
    (⟨S100000x32, .f32⟩ : BufTy).Contents (Elt F) :=
  softmaxH (logitsH (denseH (denseH (glue (denseH (glue x0 x1 x2) x3 x4) x1 x2) x5 x6) x7 x8) x9 x10)

set_option maxHeartbeats 1000000 in
/-- The generated run's result term is the composition of the stages. -/
theorem res_eq (m : (ℓ : Loc nD τ sig) → Buf (Elt F) ℓ) (c : Dev nD) :
    Cert.ReferenceIdeal.Value.res_main_v105 (F := F) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v105 whole softmaxH expH rowMaxH logitsH denseH glue
  rfl

end Cert.HGap.Ref

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.RefRows.lean ====
/-
  The reference's three kinds of host stage, read at an index on the extended reals.

  A rectified dense layer at (r, q) is max(Σ_l X(r,l)·W(l,q) + b(q), 0); the affine map to the logits at (r, q) is
  Σ_l X(r,l)·W(l,q) + b(q); and the row softmax at (r, q) is the softmax of row r of the logits at q.  Each is
  obtained by reading the host operations the stage is written with one at a time: the matrix product as the sum
  over the contraction index, a bias row spread over the rows, a scalar spread everywhere, a column of row values
  spread over the row, the row maximum as the running maximum from the initial value, the row sum as the initial
  value plus the row's sum.
-/
import proofs.«145335_j50972671869731_1_alg».proof.Proof.RefTerms
import proofs.«145335_j50972671869731_1_alg».proof.Proof.Spec
import proofs.«145335_j50972671869731_1_alg».proof.Proof.LibPlainDot
import proofs.«145335_j50972671869731_1_alg».proof.Proof.LibHostSoftmax
import Idealize.ShloMosaic.Lib.ValueIdx
import Idealize.ShloMosaic.Lib.Pipeline.Value
import Idealize.ShloMosaic.PureOps.Ideal.Laws

noncomputable section

open scoped BigOperators

namespace Cert.HGap.Ref

open Cert.ReferenceIdeal Cert.ReferenceIdeal.Gen Idealize.ShloMosaic Idealize.ShloMosaic.ValueIdx

variable {α : Type}

/-- A length-b vector given a leading unit axis and spread over a rows reads, at (r, q), its entry q. -/
theorem bcast_row_apply {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (r : Fin a) (q : Fin b) :
    broadcastInDim ⟨2, ![a, b]⟩ ![0, 1] h2 (broadcastInDim ⟨2, ![1, b]⟩ ![1] h1 v) (ix2 r q) = v (ix1 q) :=
  (broadcastInDim_apply _ h2 _ (ix2 r q) (ix2 (0 : Fin 1) q) fun ax => by
      match ax with
      | ⟨0, _⟩ => rfl
      | ⟨1, _⟩ => exact Cert.HSoft.val_ite q).trans
    (broadcastInDim_apply _ h1 _ (ix2 (0 : Fin 1) q) (ix1 q) fun ax => by
      match ax with
      | ⟨0, _⟩ => exact Cert.HSoft.val_ite q)

/-- A length-a vector given a trailing unit axis and spread over b columns reads, at (r, q), its entry r. -/
theorem bcast_col_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (r : Fin a) (q : Fin b) :
    broadcastInDim ⟨2, ![a, b]⟩ ![0, 1] h2 (broadcastInDim ⟨2, ![a, 1]⟩ ![0] h1 v) (ix2 r q) = v (ix1 r) :=
  (broadcastInDim_apply _ h2 _ (ix2 r q) (ix2 r (0 : Fin 1)) fun ax => by
      match ax with
      | ⟨0, _⟩ => exact Cert.HSoft.val_ite r
      | ⟨1, _⟩ => rfl).trans
    (broadcastInDim_apply _ h1 _ (ix2 r (0 : Fin 1)) (ix1 r) fun ax => by
      match ax with
      | ⟨0, _⟩ => exact Cert.HSoft.val_ite r)

/-- The index r of the reduced vector with the column coordinate put back. -/
theorem lift_col {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax; apply Fin.ext
  match ax with
  | ⟨0, _⟩ => rfl
  | ⟨1, _⟩ => rfl

/-- The host's maximum along the rows of a matrix, at r: the running maximum of row r from the initial value. -/
theorem reduce_max_cols_apply {a b : ℕ} (A : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf A init h' hu (ix1 r)
      = (Finset.univ : Finset (Fin b)).fold max (init ix0) (fun q => A (ix2 r q)) := by
  rw [Host.reduce_eq_fold_single FloatOps.maximumf A init h' h hu]
  have hf : (A ∘ h.lift (ix1 r)) = fun q : Fin b => A (ix2 r q) := funext fun k => congrArg A (lift_col h r k)
  have hi : init (Shape.Idx.first hu) = init ix0 := congrArg init (funext fun ax => ax.elim0)
  rw [hi]
  exact congrArg (fun f => Finset.fold max (init ix0) f (Finset.univ : Finset (Fin b))) hf

/-- The host's sum along the rows of a matrix, at r: the initial value plus the sum of row r. -/
theorem reduce_add_cols_apply {a b : ℕ} (A : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd A init h' hu (ix1 r) = init ix0 + ∑ q : Fin b, A (ix2 r q) := by
  show Ideal.hostReduceAdd h' A (init (Shape.Idx.first hu)) (ix1 r) = _
  rw [Ideal.hostReduceAdd_single h' h]
  have hi : init (Shape.Idx.first hu) = init ix0 := congrArg init (funext fun ax => ax.elim0)
  rw [hi]
  exact congrArg (init ix0 + ·) (Finset.sum_congr rfl fun k _ => congrArg A (lift_col h r k))

/-- The dimension numbers of the 128-to-128 product are those of a plain matrix product. -/
theorem dot128_plain : dot_S100000x128_S128x128_S100000x128_1_0_0_1_n_n = DotDims.plain 100000 128 128 := rfl

/-- The dimension numbers of the 128-to-32 product are those of a plain matrix product. -/
theorem dot32_plain : dot_S100000x128_S128x32_S100000x32_1_0_0_1_n_n = DotDims.plain 100000 128 32 := rfl

/-- The rectified dense layer at (r, q): max(Σ_l X(r,l)·W(l,q) + b(q), 0). -/
theorem denseH_apply (X : FVec Ideal S100000x128 .f32) (W : FVec Ideal S128x128 .f32) (b : FVec Ideal S128 .f32)
    (r : Fin 100000) (q : Fin 128) :
    denseH (F := Ideal) X W b (ix2 r q)
      = Cert.HGap.dense (fun l => X (ix2 r l)) (fun l n => W (ix2 l n)) (fun n => b (ix1 n)) q := by
  unfold denseH Cert.HGap.dense Cert.HGap.affine
  rw [maximumf_apply, addf_apply, Cert.HSoft.bcast_scalar_apply, bcast_row_apply, constant_apply]
  refine congrArg (fun t => max (t + b (ix1 q)) (Ideal.ofBits .f32 0x00000000#32)) ?_
  show FloatOps.dotGeneral dot_S100000x128_S128x128_S100000x128_1_0_0_1_n_n none .single X W (ix2 r q) = _
  rw [dot128_plain]
  exact Cert.LibPlainDot.dotGeneral_apply none .single X W r q

/-- The affine map to the logits at (r, q): Σ_l X(r,l)·W(l,q) + b(q). -/
theorem logitsH_apply (X : FVec Ideal S100000x128 .f32) (W : FVec Ideal S128x32 .f32) (b : FVec Ideal S32 .f32)
    (r : Fin 100000) (q : Fin 32) :
    logitsH (F := Ideal) X W b (ix2 r q)
      = Cert.HGap.affine (fun l => X (ix2 r l)) (fun l n => W (ix2 l n)) (fun n => b (ix1 n)) q := by
  unfold logitsH Cert.HGap.affine
  rw [addf_apply, bcast_row_apply]
  refine congrArg (fun t => t + b (ix1 q)) ?_
  show FloatOps.dotGeneral dot_S100000x128_S128x32_S100000x32_1_0_0_1_n_n none .single X W (ix2 r q) = _
  rw [dot32_plain]
  exact Cert.LibPlainDot.dotGeneral_apply none .single X W r q

/-- The spread row maximum at (r, q): the running maximum of row r from −∞. -/
theorem rowMaxH_apply (L : FVec Ideal S100000x32 .f32) (r : Fin 100000) (q : Fin 32) :
    rowMaxH (F := Ideal) L (ix2 r q) = Cert.Attn.rowMax (fun q' => L (ix2 r q')) := by
  unfold rowMaxH
  rw [bcast_col_apply, maximumf_apply, Cert.HSoft.bcast_scalar_apply,
    reduce_max_cols_apply L _ reducesTo_S100000x32_S100000_d1 (by decide) h_S_ r]
  exact Cert.Attn.max_negInf _

/-- exp(L − row maximum) at (r, q). -/
theorem expH_apply (L : FVec Ideal S100000x32 .f32) (r : Fin 100000) (q : Fin 32) :
    expH (F := Ideal) L (ix2 r q) = Ideal.exp (L (ix2 r q) - Cert.Attn.rowMax (fun q' => L (ix2 r q'))) := by
  unfold expH
  rw [Cert.HSoft.hexp_apply, subf_apply, rowMaxH_apply]

/-- The row softmax at (r, q): the softmax of row r at q. -/
theorem softmaxH_apply (L : FVec Ideal S100000x32 .f32) (r : Fin 100000) (q : Fin 32) :
    softmaxH (F := Ideal) L (ix2 r q) = Cert.Attn.sm (fun q' => L (ix2 r q')) q := by
  unfold softmaxH Cert.Attn.sm
  rw [Cert.HSoft.hdivf_apply, expH_apply, bcast_col_apply,
    reduce_add_cols_apply _ _ reducesTo_S100000x32_S100000_d1 (by decide) h_S_ r]
  refine congrArg (Ideal.div _) ?_
  show Ideal.ofBits .f32 0x00000000#32 + _ = _
  rw [Ideal.ofBits_zero_f32, zero_add]
  exact Finset.sum_congr rfl fun q' _ => expH_apply L r q'

end Cert.HGap.Ref

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMaxCols.lean ====
/-
  A matrix's maximum along its rows' entries, read at a coordinate, at the exact (extended-real) reading of the floats.

  For an a × b matrix M the maximum over the columns (axis 1) at row r is the running maximum of M[r, ·] from the
  accumulator's value: the fold of max over the b entries of row r. This is the library's one-axis maximum law with the
  inserted index written by coordinates, stated for any extents a and b — the companion, for axis 1, of the axis-0 form.
  A softmax's row maximum is read this way.
-/
import Idealize.ShloMosaic.PureOps.Ideal.Laws
import Idealize.ShloMosaic.Lib.ValueIdx

noncomputable section

namespace Cert.LibMaxCols

open Idealize.ShloMosaic Idealize.ShloMosaic.ValueIdx

/-- Maximum over the columns of an a × b matrix, at row r: the running maximum of the row from the accumulator's
    value. -/
theorem max_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (Finset.fold_congr fun c _ => congrArg src
      (funext fun ax => Fin.ext (by match ax with | ⟨0, _⟩ => rfl | ⟨1, _⟩ => rfl)))

end Cert.LibMaxCols

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.PayRows.lean ====
/-
  The two kernel bodies' stored values, read entry by entry, at the exact (extended-real) reading of the floats.

  At that reading a rounding to a narrower format is the identity, a matrix product into a zero accumulator is the
  textbook sum over the contraction index, and a reduction along a row is the row's sum or running maximum. So every
  stage of either body acts on each row of its input by itself: an affine layer reads, at (p, q), the affine map of
  row p at q; a rectified layer the maximum of that with 0; and the closing softmax, assembled from a row maximum taken
  from −∞ (and once more against −∞), a subtraction, an exponential, a row sum and a division, reads the softmax of
  row p at q.  The lemmas below state these facts for any extents, and the two theorems at the end read the printed
  values of the two bodies with them.
-/
import proofs.«145335_j50972671869731_1_alg».proof.Proof.Gen.KernelIdeal.Skeleton
import proofs.«145335_j50972671869731_1_alg».proof.Proof.Spec
import proofs.«145335_j50972671869731_1_alg».proof.Proof.LibPlainDot
import proofs.«145335_j50972671869731_1_alg».proof.Proof.LibColumn
import proofs.«145335_j50972671869731_1_alg».proof.Proof.LibMaxCols
import proofs.«145335_j50972671869731_1_alg».proof.Proof.LibAxisReduce
import proofs.«145335_j50972671869731_1_alg».proof.Proof.LibHostSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.HGap.Pay

open Cert.KernelIdeal Cert.KernelIdeal.Gen Idealize.ShloMosaic Idealize.ShloMosaic.ValueIdx

/-- An affine layer — a plain matrix product into the zero accumulator plus a one-row bias spread over the rows —
    at (p, q): the affine map of row p of the left operand, at q. -/
theorem affine_layer_apply {a K N : ℕ} {φ₁ φ₂ : FTy}
    (x : FVec Ideal ⟨2, ![a, K]⟩ φ₁) (w : FVec Ideal ⟨2, ![K, N]⟩ φ₂) (b : FVec Ideal ⟨2, ![1, N]⟩ .f32)
    (hb : (⟨2, ![1, N]⟩ : Shape).ShapeCasts ⟨2, ![1, N]⟩) (hbc : (⟨2, ![1, N]⟩ : Shape).Broadcasts ⟨2, ![a, N]⟩)
    (p : Fin a) (q : Fin N) :
    addf (matmul (DotDims.plain a K N) none x w (constant (F := Ideal) ⟨2, ![a, N]⟩ .f32 0x00000000#32))
        (broadcastTo ⟨2, ![a, N]⟩ (shapeCast ⟨2, ![1, N]⟩ b hb) hbc) (ix2 p q)
      = Cert.HGap.affine (fun l => x (ix2 p l)) (fun l n => w (ix2 l n)) (fun n => b (ix2 (0 : Fin 1) n)) q := by
  refine (addf_apply _ _ _).trans ?_
  unfold Cert.HGap.affine
  refine congrArg₂ (· + ·) (Cert.LibPlainDot.matmul_zero_apply none x w p q) ?_
  refine (broadcastTo_1b_ab_apply _ hbc p q).trans ?_
  rw [shapeCast_self]

/-- A rectified dense layer at (p, q): the maximum of the affine map of row p at q with 0. -/
theorem dense_layer_apply {a K N : ℕ} {φ₁ φ₂ : FTy}
    (x : FVec Ideal ⟨2, ![a, K]⟩ φ₁) (w : FVec Ideal ⟨2, ![K, N]⟩ φ₂) (b : FVec Ideal ⟨2, ![1, N]⟩ .f32)
    (hb : (⟨2, ![1, N]⟩ : Shape).ShapeCasts ⟨2, ![1, N]⟩) (hbc : (⟨2, ![1, N]⟩ : Shape).Broadcasts ⟨2, ![a, N]⟩)
    (p : Fin a) (q : Fin N) :
    maximumf (addf (matmul (DotDims.plain a K N) none x w (constant (F := Ideal) ⟨2, ![a, N]⟩ .f32 0x00000000#32))
        (broadcastTo ⟨2, ![a, N]⟩ (shapeCast ⟨2, ![1, N]⟩ b hb) hbc))
        (broadcast ⟨2, ![a, N]⟩ (Scalar.ofBits (F := Ideal) .f32 0x00000000#32)) (ix2 p q)
      = Cert.HGap.dense (fun l => x (ix2 p l)) (fun l n => w (ix2 l n)) (fun n => b (ix2 (0 : Fin 1) n)) q := by
  refine (maximumf_apply _ _ _).trans ?_
  unfold Cert.HGap.dense
  exact congrArg₂ max (affine_layer_apply x w b hb hbc p q) rfl

/-- The first body's stored value at (p, q): the rectified dense layer of row p of the input, at q. -/
theorem dense_pay_apply (x0 : Vec Ideal S4000x128 .f32) (x1 : Vec Ideal S128x128 .f32) (x2 : Vec Ideal S1x128 .f32)
    (p : Fin 4000) (q : Fin 128) :
    k0_pay1 (F := Ideal) x0 x1 x2 (ix2 p q)
      = Cert.HGap.dense (fun l => x0 (ix2 p l)) (fun l n => x1 (ix2 l n)) (fun n => x2 (ix2 (0 : Fin 1) n)) q := by
  unfold k0_pay1
  rw [shapeCast_self x0]
  exact dense_layer_apply (a := 4000) (K := 128) (N := 128) (truncf .bf16 x0 bitsLt_bf16_f32) (truncf .bf16 x1 bitsLt_bf16_f32) x2
    shapeCasts_S1x128_S1x128 broadcasts_S1x128_S4000x128 p q

/-- The exponential of a vector, at an index. -/
theorem exp_apply {s : Shape} {φ : FTy} (v : FVec Ideal s φ) (i : s.Idx) : exp v i = Ideal.exp (v i) := rfl

/-- The shifted exponentials of a matrix: the row maximum is taken from −∞ (and once more against −∞), set as a column,
    spread over the columns and subtracted, and the difference exponentiated. At (p, q) that is the exponential of the
    entry less the running maximum of row p. -/
theorem shifted_exp_apply {a b : ℕ} (A : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hsc : (⟨1, ![a]⟩ : Shape).ShapeCasts ⟨2, ![a, 1]⟩) (hbc : (⟨2, ![a, 1]⟩ : Shape).Broadcasts ⟨2, ![a, b]⟩)
    (p : Fin a) (q : Fin b) :
    exp (subf A (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ A 0xFF800000#32 hr hφ hacc)) hsc) hbc)) (ix2 p q)
      = Ideal.exp (A (ix2 p q) - Cert.Attn.rowMax (fun q' => A (ix2 p q'))) := by
  refine (exp_apply _ _).trans (congrArg Ideal.exp ?_)
  refine (subf_apply _ _ _).trans (congrArg (A (ix2 p q) - ·) ?_)
  refine (Cert.LibColumn.broadcastTo_a1_ab_apply _ hbc p q).trans ?_
  refine (Cert.LibColumn.shapeCast_a_a1_apply _ hsc p (0 : Fin 1)).trans ?_
  refine (maximumf_apply _ _ _).trans ?_
  refine (congrArg (max _) (Cert.LibMaxCols.max_cols_apply A _ hr hφ hacc p)).trans ?_
  exact Cert.Attn.max_negInf _

/-- A matrix divided by its row sums — the sums set as a column and spread over the columns — at (p, q): the entry over
    the sum of row p. -/
theorem row_quot_apply {a b : ℕ} (E : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hsc : (⟨1, ![a]⟩ : Shape).ShapeCasts ⟨2, ![a, 1]⟩) (hbc : (⟨2, ![a, 1]⟩ : Shape).Broadcasts ⟨2, ![a, b]⟩)
    (p : Fin a) (q : Fin b) :
    divf E (broadcastTo ⟨2, ![a, b]⟩ (shapeCast ⟨2, ![a, 1]⟩
        (multiReduction .add [1] ⟨1, ![a]⟩ E 0x00000000#32 hr hφ hacc) hsc) hbc) (ix2 p q)
      = Ideal.div (E (ix2 p q)) (∑ c : Fin b, E (ix2 p c)) := by
  refine (divf_apply _ _ _).trans (congrArg (Ideal.div (E (ix2 p q))) ?_)
  refine (Cert.LibColumn.broadcastTo_a1_ab_apply _ hbc p q).trans ?_
  refine (Cert.LibColumn.shapeCast_a_a1_apply _ hsc p (0 : Fin 1)).trans ?_
  exact Cert.LibAxisReduce.add_cols_apply E _ hr hφ hacc p

/-- The row softmax as the body computes it — shifted exponentials divided by their row sums — at (p, q): the softmax
    of row p, at q. -/
theorem softmax_apply {a b : ℕ} (A : FVec Ideal ⟨2, ![a, b]⟩ .f32)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hsc : (⟨1, ![a]⟩ : Shape).ShapeCasts ⟨2, ![a, 1]⟩) (hbc : (⟨2, ![a, 1]⟩ : Shape).Broadcasts ⟨2, ![a, b]⟩)
    (p : Fin a) (q : Fin b) :
    divf (exp (subf A (broadcastTo ⟨2, ![a, b]⟩ (shapeCast ⟨2, ![a, 1]⟩
            (maximumf (broadcast ⟨1, ![a]⟩ (Scalar.ofBits (F := Ideal) .f32 0xFF800000#32))
              (multiReduction .maximumf [1] ⟨1, ![a]⟩ A 0xFF800000#32 hr hφ hmax)) hsc) hbc)))
        (broadcastTo ⟨2, ![a, b]⟩ (shapeCast ⟨2, ![a, 1]⟩
          (multiReduction .add [1] ⟨1, ![a]⟩
            (exp (subf A (broadcastTo ⟨2, ![a, b]⟩ (shapeCast ⟨2, ![a, 1]⟩
              (maximumf (broadcast ⟨1, ![a]⟩ (Scalar.ofBits (F := Ideal) .f32 0xFF800000#32))
                (multiReduction .maximumf [1] ⟨1, ![a]⟩ A 0xFF800000#32 hr hφ hmax)) hsc) hbc)))
            0x00000000#32 hr hφ hadd) hsc) hbc) (ix2 p q)
      = Cert.Attn.sm (fun q' => A (ix2 p q')) q := by
  refine (row_quot_apply _ hr hφ hadd hsc hbc p q).trans ?_
  unfold Cert.Attn.sm
  refine congrArg₂ Ideal.div (shifted_exp_apply A hr hφ hmax hsc hbc p q) ?_
  exact Finset.sum_congr rfl fun c _ => shifted_exp_apply A hr hφ hmax hsc hbc p c

/-- The second body's stored value at (p, q): two rectified dense layers on row p of the input, the affine map to the
    32 logits, and their softmax, at q. -/
theorem tail_pay_apply (x0 : Vec Ideal S4000x128 .f32) (x1 : Vec Ideal S128x128 .f32) (x2 : Vec Ideal S1x128 .f32)
    (x3 : Vec Ideal S128x128 .f32) (x4 : Vec Ideal S1x128 .f32) (x5 : Vec Ideal S128x32 .f32) (x6 : Vec Ideal S1x32 .f32)
    (p : Fin 4000) (q : Fin 32) :
    k1_pay1 (F := Ideal) (k1_pay2 (F := Ideal) x0 x1 x2 x3 x4 x5 x6) (ix2 p q)
      = Cert.HGap.tailRow (fun l => x0 (ix2 p l)) (fun l n => x1 (ix2 l n)) (fun n => x2 (ix2 (0 : Fin 1) n))
          (fun l n => x3 (ix2 l n)) (fun n => x4 (ix2 (0 : Fin 1) n)) (fun l n => x5 (ix2 l n))
          (fun n => x6 (ix2 (0 : Fin 1) n)) q := by
  unfold k1_pay1 k1_pay2
  rw [shapeCast_self x0]
  refine (softmax_apply (a := 4000) (b := 32) _ reduces_S4000x32_S4000 _ _ _ shapeCasts_S4000_S4000x1
    broadcasts_S4000x1_S4000x32 p q).trans ?_
  unfold Cert.HGap.tailRow
  refine congrArg (fun T => Cert.Attn.sm T q) (funext fun c => ?_)
  refine (affine_layer_apply (a := 4000) (K := 128) (N := 32) _ _ x6 shapeCasts_S1x32_S1x32 broadcasts_S1x32_S4000x32 p c).trans ?_
  refine congrArg (fun r => Cert.HGap.affine r (fun l n => x5 (ix2 l n)) (fun n => x6 (ix2 (0 : Fin 1) n)) c) (funext fun l => ?_)
  refine (truncf_apply (ψ := .bf16) _ bitsLt_bf16_f32 _).trans ?_
  refine (dense_layer_apply (a := 4000) (K := 128) (N := 128) _ _ x4 shapeCasts_S1x128_S1x128 broadcasts_S1x128_S4000x128 p l).trans ?_
  refine congrArg (fun r => Cert.HGap.dense r (fun l n => x3 (ix2 l n)) (fun n => x4 (ix2 (0 : Fin 1) n)) l) (funext fun l' => ?_)
  refine (truncf_apply (ψ := .bf16) _ bitsLt_bf16_f32 _).trans ?_
  exact dense_layer_apply (a := 4000) (K := 128) (N := 128) (truncf .bf16 x0 bitsLt_bf16_f32) (truncf .bf16 x1 bitsLt_bf16_f32) x2
    shapeCasts_S1x128_S1x128 broadcasts_S1x128_S4000x128 p l'

end Cert.HGap.Pay

end
-- ==== Proof.Bridge.lean ====
/-
  The two programs compute one function.

  Index by index: entry (r, q) of either result is the softmax, at q, of the 32 logits of row r, the logits being the
  affine image of two rectified dense layers of row r of the twice-averaged features.  The averaging is the same list of
  host operations in both programs and is never opened; the rectified dense layer between the two averagings agrees row
  by row for the same reason (the kernel's matrix product into a zero accumulator and the reference's contraction are
  one sum, the rounding of the operands to a shorter format being the identity on exact values); a bias passed as a
  1 × n row reads the same as the bias spread from its n entries.  No property of the inputs is used.
-/
import proofs.«145335_j50972671869731_1_alg».proof.Proof.KernelValue
import proofs.«145335_j50972671869731_1_alg».proof.Proof.RefSide
import proofs.«145335_j50972671869731_1_alg».proof.Proof.RefRows
import proofs.«145335_j50972671869731_1_alg».proof.Proof.PayRows
import Idealize.ShloMosaic.Lib.ValueLayout

set_option maxRecDepth 16384

noncomputable section

namespace Cert.HGap

open Idealize.ShloMosaic Idealize.ShloMosaic.ValueIdx

/-- The neighbourhood averaging is the same function in the two programs: the same operations with the same dimension
    records, spelt in each program's own namespace. -/
theorem glue_eq (x0 : (⟨Cert.KernelIdeal.S100000x128, .f32⟩ : BufTy).Contents (Elt Ideal)) (x1 x2 : (⟨Cert.KernelIdeal.S800000, .i32⟩ : BufTy).Contents (Elt Ideal)) :
    K.glue (F := Ideal) x0 x1 x2 = Ref.glue (F := Ideal) x0 x1 x2 := rfl

/-- The first region's row-wise layer is the reference's rectified dense layer, whatever array both are applied to. -/
theorem dense_eq (X : (⟨Cert.KernelIdeal.S100000x128, .f32⟩ : BufTy).Contents (Elt Ideal)) (W : (⟨Cert.KernelIdeal.S128x128, .f32⟩ : BufTy).Contents (Elt Ideal)) (b : (⟨Cert.KernelIdeal.S128, .f32⟩ : BufTy).Contents (Elt Ideal))
    (h : (⟨1, ![128]⟩ : Shape).ShapeCasts ⟨2, ![1, 128]⟩) :
    K0.rowsDense X W (shapeCast ⟨2, ![1, 128]⟩ b h) = Ref.denseH (F := Ideal) X W b := by
  funext i
  obtain ⟨r, q, rfl⟩ : ∃ (r : Fin 100000) (q : Fin 128), i = ix2 r q := ⟨i 0, i 1, eq_ix2 i⟩
  rw [K0.rowsDense_apply, Ref.denseH_apply]
  simp only [shapeCast_a_1a_apply]

/-- The kernel program's function of the arguments is the reference's. -/
theorem whole_eq (x0 : (⟨Cert.KernelIdeal.S100000x128, .f32⟩ : BufTy).Contents (Elt Ideal)) (x1 x2 : (⟨Cert.KernelIdeal.S800000, .i32⟩ : BufTy).Contents (Elt Ideal))
    (x3 : (⟨Cert.KernelIdeal.S128x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 : (⟨Cert.KernelIdeal.S128, .f32⟩ : BufTy).Contents (Elt Ideal))
    (x7 : (⟨Cert.KernelIdeal.S128x128, .f32⟩ : BufTy).Contents (Elt Ideal)) (x8 : (⟨Cert.KernelIdeal.S128, .f32⟩ : BufTy).Contents (Elt Ideal)) (x9 : (⟨Cert.KernelIdeal.S128x32, .f32⟩ : BufTy).Contents (Elt Ideal)) (x10 : (⟨Cert.KernelIdeal.S32, .f32⟩ : BufTy).Contents (Elt Ideal)) :
    K.whole x0 x1 x2 x3 x4 x5 x6 x7 x8 x9 x10 = Ref.whole (F := Ideal) x0 x1 x2 x3 x4 x5 x6 x7 x8 x9 x10 := by
  funext i
  obtain ⟨r, q, rfl⟩ : ∃ (r : Fin 100000) (q : Fin 32), i = ix2 r q := ⟨i 0, i 1, eq_ix2 i⟩
  unfold K.whole Ref.whole
  rw [K1.rowsTail_apply, Ref.softmaxH_apply, dense_eq, glue_eq, glue_eq]
  unfold tailRow
  simp only [Ref.logitsH_apply, Ref.denseH_apply, shapeCast_a_1a_apply]

end Cert.HGap

end
-- ==== Proof.lean ====
/-
  The certificate: the idealized kernel program and the idealized reference end with equal results.

  Both programs are two rounds of  neighbourhood averaging over a hypergraph → dense layer with rectification,  then a
  second rectified dense layer, an affine map to 32 logits and a softmax over each row.  The kernel program computes the
  dense stages in two kernel regions, 4000 rows at a time, and the averagings on the host; the reference computes
  everything on the host.  At the exact reading of the floats the two results are one function of the arguments
  (Proof/Bridge.lean), each program's result being read off its run (Proof/KernelRun.lean, Proof/KernelValue.lean for the
  kernel program; the generated run and Proof/RefSide.lean for the reference).  The three frames are the generated ones,
  and the idealization rewrote nothing, so there is nothing to preserve.
-/
import proofs.«145335_j50972671869731_1_alg».proof.Defs
import proofs.«145335_j50972671869731_1_alg».proof.Proof.Gen.Kernel
import proofs.«145335_j50972671869731_1_alg».proof.Proof.Gen.Kernel.Skeleton
import proofs.«145335_j50972671869731_1_alg».proof.Proof.Gen.Kernel.Launch
import proofs.«145335_j50972671869731_1_alg».proof.Proof.Gen.Kernel.Points
import proofs.«145335_j50972671869731_1_alg».proof.Proof.Gen.Kernel.Frame
import proofs.«145335_j50972671869731_1_alg».proof.Proof.Gen.KernelIdeal
import proofs.«145335_j50972671869731_1_alg».proof.Proof.Gen.KernelIdeal.Skeleton
import proofs.«145335_j50972671869731_1_alg».proof.Proof.Gen.KernelIdeal.Launch
import proofs.«145335_j50972671869731_1_alg».proof.Proof.Gen.KernelIdeal.Points
import proofs.«145335_j50972671869731_1_alg».proof.Proof.Gen.KernelIdeal.Frame
import proofs.«145335_j50972671869731_1_alg».proof.Proof.Gen.ReferenceIdeal
import proofs.«145335_j50972671869731_1_alg».proof.Proof.Gen.Pre_finite_inputs
import proofs.«145335_j50972671869731_1_alg».proof.Proof.Gen.ReferenceIdeal.Run
import proofs.«145335_j50972671869731_1_alg».proof.Proof.Gen.ReferenceIdeal.Read
import proofs.«145335_j50972671869731_1_alg».proof.Proof.KernelRun
import proofs.«145335_j50972671869731_1_alg».proof.Proof.KernelValue
import proofs.«145335_j50972671869731_1_alg».proof.Proof.RefSide
import proofs.«145335_j50972671869731_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its generated run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end, the result buffers holding the same function of the
    arguments. -/
theorem algebraic : Cert.algebraic_KernelIdeal_ReferenceIdeal := by
  intro m ρ m' ρ' _ hagree
  refine ⟨fun c => Cert.HGap.K.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.HGap.K.result_eq m ρ c Cert.HGap.Pay.dense_pay_apply Cert.HGap.Pay.tail_pay_apply), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.HGap.Ref.res_eq, e0, e1, e2, e3, e4, e5, e6, e7, e8, e9, e10]
    exact (Cert.HGap.whole_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
